-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S_ : Shape := ⟨0, ![]⟩

class Facts : Prop where
  bcast_S_S16x768x32x9 : S_.BroadcastsInDim S16x768x32x9 (![] : Fin 0 → Fin S16x768x32x9.rank)
  reducesTo_S16x768x32x9_S_d0_1_2_3 : S16x768x32x9.ReducesTo [0, 1, 2, 3] S_
  h_S_ : 0 < S_.numel
  bcast_S_S128x9 : S_.BroadcastsInDim S128x9 (![] : Fin 0 → Fin S128x9.rank)
  reducesTo_S128x9_S_d0_1 : S128x9.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg19 : FVec F S256x128 .f32) (main_arg20 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg15 : FVec F S128 .f32) (main_arg16 : FVec F S128 .f32) (main_arg17 : FVec F S128x128 .f32) (main_arg18 : FVec F S128 .f32) (main_arg19 : FVec F S256x128 .f32) (main_arg20 : FVec F S256 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S16x768x32x9 .f32) (main_arg1 : IVec S16x768x32 1) (main_arg2 : FVec F S128x9 .f32) (main_arg3 : FVec F S128 .f32) (main_arg4 : FVec F S128 .f32) (main_arg5 : FVec F S128 .f32) (main_arg6 : FVec F S128 .f32) (main_arg7 : FVec F S128x256 .f32) (main_arg8 : FVec F S128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S256x128 .f32) (main_arg20 : FVec F S256 .f32) : IVec S_ 1 :=
  let main_v0 : FVec F S16x768x32x9 .f32 := Host.absf main_arg0
  let main_cst : FVec F S_ .f32 := constant S_ .f32 0x7F800000#32
  let main_v1 : FVec F S16x768x32x9 .f32 := broadcastInDim S16x768x32x9 ![] bcast_S_S16x768x32x9 main_cst
  let main_v2 : IVec S16x768x32x9 1 := cmpf .olt main_v0 main_v1
  let main_c : IVec S_ 1 := constantI S_ 1 1#1
  let main_v3 : IVec S_ 1 := (fun x v => Host.reduce IntOp.andi x v reducesTo_S16x768x32x9_S_d0_1_2_3 h_S_) main_v2 main_c
  let main_v4 : FVec F S128x9 .f32 := Host.absf main_arg2
  let main_cst_0 : FVec F S_ .f32 := constant S_ .f32 0x7F800000#32
  let main_v5 : FVec F S128x9 .f32 := broadcastInDim S128x9 ![] bcast_S_S128x9 main_cst_0
  let main_v6 : IVec S128x9 1 := cmpf .olt main_v4 main_v5
  let main_c_1 : IVec S_ 1 := constantI S_ 1 1#1
  let main_v7 : IVec S_ 1 := (fun x v => Host.reduce IntOp.andi x v reducesTo_S128x9_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S16x768x32x1 : Shape := ⟨4, ![16, 768, 32, 1]⟩
abbrev S16x768x256 : Shape := ⟨3, ![16, 768, 256]⟩
abbrev S1x64x32x9 : Shape := ⟨4, ![1, 64, 32, 9]⟩
abbrev S1x64x32x1 : Shape := ⟨4, ![1, 64, 32, 1]⟩
abbrev S1x64x256 : Shape := ⟨3, ![1, 64, 256]⟩
abbrev S64x32x9 : Shape := ⟨3, ![64, 32, 9]⟩
abbrev S2048x9 : Shape := ⟨2, ![2048, 9]⟩
abbrev S9x128 : Shape := ⟨2, ![9, 128]⟩
abbrev S2048x128 : Shape := ⟨2, ![2048, 128]⟩
abbrev S1x128 : Shape := ⟨2, ![1, 128]⟩
abbrev S64x32x1 : Shape := ⟨3, ![64, 32, 1]⟩
abbrev S2048x1 : Shape := ⟨2, ![2048, 1]⟩
abbrev S64x32x128 : Shape := ⟨3, ![64, 32, 128]⟩
abbrev S64x128 : Shape := ⟨2, ![64, 128]⟩
abbrev S64x1x128 : Shape := ⟨3, ![64, 1, 128]⟩
abbrev S2048x256 : Shape := ⟨2, ![2048, 256]⟩
abbrev S64x256 : Shape := ⟨2, ![64, 256]⟩
abbrev S1x256 : Shape := ⟨2, ![1, 256]⟩
abbrev S64x1 : Shape := ⟨2, ![64, 1]⟩

abbrev nBuf : Space → Nat
  | .hbm => 24
  | .vmem => 25
  | .smem => 0
  | _ => 0

abbrev bufTy : (tb : Table) → Fin (tcTables nBuf tb) → BufTy
  | .hbm, ⟨0, _⟩ => ⟨S16x768x32x9, .f32⟩
  | .hbm, ⟨1, _⟩ => ⟨S16x768x32, .i1⟩
  | .hbm, ⟨2, _⟩ => ⟨S128x9, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S16x768x32, .f32⟩
  | .hbm, ⟨22, _⟩ => ⟨S16x768x32x1, .f32⟩
  | .hbm, ⟨23, _⟩ => ⟨S16x768x256, .f32⟩
  | .local _ .vmem, ⟨0, _⟩ => ⟨S1x64x32x9, .f32⟩
  | .local _ .vmem, ⟨1, _⟩ => ⟨S1x64x32x9, .f32⟩
  | .local _ .vmem, ⟨2, _⟩ => ⟨S1x64x32x1, .f32⟩
  | .local _ .vmem, ⟨3, _⟩ => ⟨S1x64x32x1, .f32⟩
  | .local _ .vmem, ⟨4, _⟩ => ⟨S128x9, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128x256, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S256x128, .f32⟩
  | .local _ .vmem, ⟨22, _⟩ => ⟨S256, .f32⟩
  | .local _ .vmem, ⟨23, _⟩ => ⟨S1x64x256, .f32⟩
  | .local _ .vmem, ⟨24, _⟩ => ⟨S1x64x256, .f32⟩
  | _, _ => ⟨S16x768x32x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨2, ![16, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

class Facts₀ : Prop where
  bcast_S16x768x32_S16x768x32x1_0_1_2 : S16x768x32.BroadcastsInDim S16x768x32x1 (![0, 1, 2] : Fin 3 → Fin S16x768x32x1.rank)
  inb_S1x64x32x9_S1x64x32x9_0_0_0_0 : ∀ a, (![0, 0, 0, 0] : Fin 4 → Nat) a + S1x64x32x9.size a ≤ S1x64x32x9.size a
  h_S1x64x32x9 : 0 < S1x64x32x9.numel
  shapeCasts_S1x64x32x9_S64x32x9 : S1x64x32x9.ShapeCasts S64x32x9
  bitsLt_bf16_f32 : FTy.bits .bf16 < FTy.bits .f32
  shapeCasts_S64x32x9_S2048x9 : S64x32x9.ShapeCasts S2048x9
  inb_S128x9_S128x9_0_0 : ∀ a, (![0, 0] : Fin 2 → Nat) a + S128x9.size a ≤ S128x9.size a
  h_S128x9 : 0 < S128x9.numel
  transposes_S128x9_p1_0_S9x128 : S128x9.Transposes [1, 0] S9x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x64x32x1_S1x64x32x1_0_0_0_0 : ∀ a, (![0, 0, 0, 0] : Fin 4 → Nat) a + S1x64x32x1.size a ≤ S1x64x32x1.size a
  h_S1x64x32x1 : 0 < S1x64x32x1.numel
  shapeCasts_S1x64x32x1_S64x32x1 : S1x64x32x1.ShapeCasts S64x32x1
  shapeCasts_S64x32x1_S2048x1 : S64x32x1.ShapeCasts S2048x1
  broadcasts_S2048x1_S2048x128 : S2048x1.Broadcasts S2048x128
  shapeCasts_S2048x128_S64x32x128 : S2048x128.ShapeCasts S64x32x128
  reduces_S64x32x128_S64x128 : S64x32x128.Reduces [1] S64x128
  shapeCasts_S64x128_S64x1x128 : S64x128.ShapeCasts S64x1x128
  shapeCasts_S64x1x128_S64x1x128 : S64x1x128.ShapeCasts S64x1x128
  broadcasts_S64x1x128_S64x32x128 : S64x1x128.Broadcasts S64x32x128
  shapeCasts_S64x32x128_S2048x128 : S64x32x128.ShapeCasts S2048x128
  concatenates_S2048x128_S2048x128_S2048x256_d1 : Shape.Concatenates [S2048x128, S2048x128] S2048x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S64x128 : S1x128.Broadcasts S64x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  reduces_S64x32x1_S64x1 : S64x32x1.Reduces [1] S64x1
  broadcasts_S64x1_S64x256 : S64x1.Broadcasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S2048x9_S9x128_S2048x128_1_0_0_1_n_n_wf : DotDims.WF S2048x9 S9x128 S2048x128 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S64x128_S128x128_S64x128_1_0_0_1_n_n_wf : DotDims.WF S64x128 S128x128 S64x128 [1] [0] [0] [1] [] []
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x9.size a ≤ S16x768x32x9.size a
  hwx0_0 : ∀ i : grid0.Coords, EltTy.bits .f32 = 32 ∨ (Rect.block (s := S16x768x32x9) S1x64x32x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32x1.size a ≤ S16x768x32x1.size a
  hwx0_1 : ∀ i : grid0.Coords, EltTy.bits .f32 = 32 ∨ (Rect.block (s := S16x768x32x1) S1x64x32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x9.size a ≤ S128x9.size a
  hwx0_2 : ∀ i : grid0.Coords, EltTy.bits .f32 = 32 ∨ (Rect.block (s := S128x9) S128x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .f32 = 32 ∨ (Rect.block (s := S256x128) S256x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x64x256.size a ≤ S16x768x256.size a
  hwx0_21 : ∀ i : grid0.Coords, EltTy.bits .f32 = 32 ∨ (Rect.block (s := S16x768x256) S1x64x256.size (cc0_transform_21 i) (hinb0_21 i)).WholeWords (EltTy.packing .f32)

variable [Facts₀]

def dot_S2048x9_S9x128_S2048x128_1_0_0_1_n_n : DotDims S2048x9 S9x128 S2048x128 where
  lhsContracting := [1]
  rhsContracting := [0]
  lhsNonContracting := [0]
  rhsNonContracting := [1]
  lhsBatch := []
  rhsBatch := []
  wf := dot_S2048x9_S9x128_S2048x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_arg0) S1x64x32x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v2) S1x64x256.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16x768x32x9 : Shape := ⟨4, ![16, 768, 32, 9]⟩
abbrev S16x768x32 : Shape := ⟨3, ![16, 768, 32]⟩
abbrev S128x9 : Shape := ⟨2, ![128, 9]⟩
abbrev S128 : Shape := ⟨1, ![128]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S16x768x32x1 : Shape := ⟨4, ![16, 768, 32, 1]⟩
abbrev S16x768x32x128 : Shape := ⟨4, ![16, 768, 32, 128]⟩
abbrev S1x1x1x128 : Shape := ⟨4, ![1, 1, 1, 128]⟩
abbrev S_ : Shape := ⟨0, ![]⟩
abbrev S16x768x128 : Shape := ⟨3, ![16, 768, 128]⟩
abbrev S16x768x1x128 : Shape := ⟨4, ![16, 768, 1, 128]⟩
abbrev S16x768x32x256 : Shape := ⟨4, ![16, 768, 32, 256]⟩
abbrev S16x768 : Shape := ⟨2, ![16, 768]⟩
abbrev S1x1x128 : Shape := ⟨3, ![1, 1, 128]⟩
abbrev S16x768x256 : Shape := ⟨3, ![16, 768, 256]⟩
abbrev S1x1x256 : Shape := ⟨3, ![1, 1, 256]⟩
abbrev S16x768x1 : Shape := ⟨3, ![16, 768, 1]⟩

abbrev nBuf : Space → Nat
  | .hbm => 112
  | .vmem => 0
  | .smem => 0
  | _ => 0

abbrev bufTy : (tb : Table) → Fin (tcTables nBuf tb) → BufTy
  | .hbm, ⟨0, _⟩ => ⟨S16x768x32x9, .f32⟩
  | .hbm, ⟨1, _⟩ => ⟨S16x768x32, .i1⟩
  | .hbm, ⟨2, _⟩ => ⟨S128x9, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x128, .f32⟩
  | .hbm, ⟨20, _⟩ => ⟨S256, .f32⟩
  | .hbm, ⟨21, _⟩ => ⟨S16x768x32x1, .i1⟩
  | .hbm, ⟨22, _⟩ => ⟨S16x768x32x128, .f32⟩
  | .hbm, ⟨23, _⟩ => ⟨S1x1x1x128, .f32⟩
  | .hbm, ⟨24, _⟩ => ⟨S16x768x32x128, .f32⟩
  | .hbm, ⟨25, _⟩ => ⟨S16x768x32x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x1x1x128, .f32⟩
  | .hbm, ⟨32, _⟩ => ⟨S16x768x32x128, .f32⟩
  | .hbm, ⟨33, _⟩ => ⟨S16x768x32x128, .f32⟩
  | .hbm, ⟨34, _⟩ => ⟨S1x1x1x128, .f32⟩
  | .hbm, ⟨35, _⟩ => ⟨S16x768x32x128, .f32⟩
  | .hbm, ⟨36, _⟩ => ⟨S16x768x32x128, .f32⟩
  | .hbm, ⟨37, _⟩ => ⟨S_, .f32⟩
  | .hbm, ⟨38, _⟩ => ⟨S16x768x32x128, .f32⟩
  | .hbm, ⟨39, _⟩ => ⟨S16x768x32x128, .f32⟩
  | .hbm, ⟨40, _⟩ => ⟨S_, .f32⟩
  | .hbm, ⟨41, _⟩ => ⟨S_, .f32⟩
  | .hbm, ⟨42, _⟩ => ⟨S16x768x32x128, .i1⟩
  | .hbm, ⟨43, _⟩ => ⟨S16x768x32x128, .f32⟩
  | .hbm, ⟨44, _⟩ => ⟨S16x768x32x128, .f32⟩
  | .hbm, ⟨45, _⟩ => ⟨S_, .f32⟩
  | .hbm, ⟨46, _⟩ => ⟨S16x768x128, .f32⟩
  | .hbm, ⟨47, _⟩ => ⟨S16x768x1x128, .f32⟩
  | .hbm, ⟨48, _⟩ => ⟨S16x768x32x128, .f32⟩
  | .hbm, ⟨49, _⟩ => ⟨S16x768x32x256, .f32⟩
  | .hbm, ⟨50, _⟩ => ⟨S16x768x32x128, .f32⟩
  | .hbm, ⟨51, _⟩ => ⟨S1x1x1x128, .f32⟩
  | .hbm, ⟨52, _⟩ => ⟨S16x768x32x128, .f32⟩
  | .hbm, ⟨53, _⟩ => ⟨S16x768x32x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x1x1x128, .f32⟩
  | .hbm, ⟨60, _⟩ => ⟨S16x768x32x128, .f32⟩
  | .hbm, ⟨61, _⟩ => ⟨S16x768x32x128, .f32⟩
  | .hbm, ⟨62, _⟩ => ⟨S1x1x1x128, .f32⟩
  | .hbm, ⟨63, _⟩ => ⟨S16x768x32x128, .f32⟩
  | .hbm, ⟨64, _⟩ => ⟨S16x768x32x128, .f32⟩
  | .hbm, ⟨65, _⟩ => ⟨S_, .f32⟩
  | .hbm, ⟨66, _⟩ => ⟨S16x768x32x128, .f32⟩
  | .hbm, ⟨67, _⟩ => ⟨S16x768x32x128, .f32⟩
  | .hbm, ⟨68, _⟩ => ⟨S16x768x32x128, .f32⟩
  | .hbm, ⟨69, _⟩ => ⟨S1x1x1x128, .f32⟩
  | .hbm, ⟨70, _⟩ => ⟨S16x768x32x128, .f32⟩
  | .hbm, ⟨71, _⟩ => ⟨S16x768x32x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x1x1x128, .f32⟩
  | .hbm, ⟨78, _⟩ => ⟨S16x768x32x128, .f32⟩
  | .hbm, ⟨79, _⟩ => ⟨S16x768x32x128, .f32⟩
  | .hbm, ⟨80, _⟩ => ⟨S1x1x1x128, .f32⟩
  | .hbm, ⟨81, _⟩ => ⟨S16x768x32x128, .f32⟩
  | .hbm, ⟨82, _⟩ => ⟨S16x768x32x128, .f32⟩
  | .hbm, ⟨83, _⟩ => ⟨S_, .f32⟩
  | .hbm, ⟨84, _⟩ => ⟨S16x768x32x128, .f32⟩
  | .hbm, ⟨85, _⟩ => ⟨S16x768x32x128, .f32⟩
  | .hbm, ⟨86, _⟩ => ⟨S_, .f32⟩
  | .hbm, ⟨87, _⟩ => ⟨S_, .f32⟩
  | .hbm, ⟨88, _⟩ => ⟨S16x768x32x128, .i1⟩
  | .hbm, ⟨89, _⟩ => ⟨S16x768x32x128, .f32⟩
  | .hbm, ⟨90, _⟩ => ⟨S16x768x32x128, .f32⟩
  | .hbm, ⟨91, _⟩ => ⟨S_, .f32⟩
  | .hbm, ⟨92, _⟩ => ⟨S16x768x128, .f32⟩
  | .hbm, ⟨93, _⟩ => ⟨S_, .i1⟩
  | .hbm, ⟨94, _⟩ => ⟨S16x768, .i1⟩
  | .hbm, ⟨95, _⟩ => ⟨S16x768x128, .f32⟩
  | .hbm, ⟨96, _⟩ => ⟨S1x1x128, .f32⟩
  | .hbm, ⟨97, _⟩ => ⟨S16x768x128, .f32⟩
  | .hbm, ⟨98, _⟩ => ⟨S16x768x128, .f32⟩
  | .hbm, ⟨99, _⟩ => ⟨S_, .f32⟩
  | .hbm, ⟨100, _⟩ => ⟨S16x768x128, .f32⟩
  | .hbm, ⟨101, _⟩ => ⟨S16x768x128, .f32⟩
  | .hbm, ⟨102, _⟩ => ⟨S16x768x256, .f32⟩
  | .hbm, ⟨103, _⟩ => ⟨S1x1x256, .f32⟩
  | .hbm, ⟨104, _⟩ => ⟨S16x768x256, .f32⟩
  | .hbm, ⟨105, _⟩ => ⟨S16x768x256, .f32⟩
  | .hbm, ⟨106, _⟩ => ⟨S16x768x1, .i1⟩
  | .hbm, ⟨107, _⟩ => ⟨S_, .f32⟩
  | .hbm, ⟨108, _⟩ => ⟨S_, .f32⟩
  | .hbm, ⟨109, _⟩ => ⟨S16x768x256, .i1⟩
  | .hbm, ⟨110, _⟩ => ⟨S16x768x256, .f32⟩
  | .hbm, ⟨111, _⟩ => ⟨S16x768x256, .f32⟩
  | _, _ => ⟨S16x768x32x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call0_cst : Ref sig .tc := ⟨.hbm, 37, rfl⟩
abbrev main_call0_v0 : Ref sig .tc := ⟨.hbm, 38, rfl⟩
abbrev main_v15 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call2_cst : Ref sig .tc := ⟨.hbm, 65, rfl⟩
abbrev main_call2_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call3_cst : Ref sig .tc := ⟨.hbm, 83, rfl⟩
abbrev main_call3_v0 : Ref sig .tc := ⟨.hbm, 84, rfl⟩
abbrev main_v50 : Ref sig .tc := ⟨.hbm, 85, rfl⟩
abbrev main_cst_4 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v51 : Ref sig .tc := ⟨.hbm, 90, rfl⟩
abbrev main_cst_5 : Ref sig .tc := ⟨.hbm, 91, rfl⟩
abbrev main_v52 : Ref sig .tc := ⟨.hbm, 92, rfl⟩
abbrev main_c : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call5_cst : Ref sig .tc := ⟨.hbm, 99, rfl⟩
abbrev main_call5_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_6 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v64 : Ref sig .tc := ⟨.hbm, 111, rfl⟩

abbrev nD : Nat := 1
abbrev τ : Topo := Topo.v7x

variable {F : FTy → Type} [FloatOps F]

class Facts₀ : Prop where
  bcast_S16x768x32_S16x768x32x1_0_1_2 : S16x768x32.BroadcastsInDim S16x768x32x1 (![0, 1, 2] : Fin 3 → Fin S16x768x32x1.rank)
  bcast_S128_S1x1x1x128_3 : S128.BroadcastsInDim S1x1x1x128 (![3] : Fin 1 → Fin S1x1x1x128.rank)
  bcast_S1x1x1x128_S16x768x32x128_0_1_2_3 : S1x1x1x128.BroadcastsInDim S16x768x32x128 (![0, 1, 2, 3] : Fin 4 → Fin S16x768x32x128.rank)
  bcast_S_S128 : S_.BroadcastsInDim S128 (![] : Fin 0 → Fin S128.rank)
  bcast_S_S16x768x32x128 : S_.BroadcastsInDim S16x768x32x128 (![] : Fin 0 → Fin S16x768x32x128.rank)
  bcast_S16x768x32x1_S16x768x32x128_0_1_2_3 : S16x768x32x1.BroadcastsInDim S16x768x32x128 (![0, 1, 2, 3] : Fin 4 → Fin S16x768x32x128.rank)
  reducesTo_S16x768x32x128_S16x768x128_d2 : S16x768x32x128.ReducesTo [2] S16x768x128
  h_S_ : 0 < S_.numel
  bcast_S16x768x128_S16x768x1x128_0_1_3 : S16x768x128.BroadcastsInDim S16x768x1x128 (![0, 1, 3] : Fin 3 → Fin S16x768x1x128.rank)
  bcast_S16x768x1x128_S16x768x32x128_0_1_2_3 : S16x768x1x128.BroadcastsInDim S16x768x32x128 (![0, 1, 2, 3] : Fin 4 → Fin S16x768x32x128.rank)
  concatenates_S16x768x32x128_S16x768x32x128_S16x768x32x256_d3 : Shape.Concatenates [S16x768x32x128, S16x768x32x128] S16x768x32x256 3
  reducesTo_S16x768x32_S16x768_d2 : S16x768x32.ReducesTo [2] S16x768
  bcast_S128_S1x1x128_2 : S128.BroadcastsInDim S1x1x128 (![2] : Fin 1 → Fin S1x1x128.rank)
  bcast_S1x1x128_S16x768x128_0_1_2 : S1x1x128.BroadcastsInDim S16x768x128 (![0, 1, 2] : Fin 3 → Fin S16x768x128.rank)
  bcast_S_S16x768x128 : S_.BroadcastsInDim S16x768x128 (![] : Fin 0 → Fin S16x768x128.rank)
  bcast_S256_S1x1x256_2 : S256.BroadcastsInDim S1x1x256 (![2] : Fin 1 → Fin S1x1x256.rank)
  bcast_S1x1x256_S16x768x256_0_1_2 : S1x1x256.BroadcastsInDim S16x768x256 (![0, 1, 2] : Fin 3 → Fin S16x768x256.rank)
  bcast_S16x768_S16x768x1_0_1 : S16x768.BroadcastsInDim S16x768x1 (![0, 1] : Fin 2 → Fin S16x768x1.rank)
  bcast_S16x768x1_S16x768x256_0_1_2 : S16x768x1.BroadcastsInDim S16x768x256 (![0, 1, 2] : Fin 3 → Fin S16x768x256.rank)
  bcast_S_S16x768x256 : S_.BroadcastsInDim S16x768x256 (![] : Fin 0 → Fin S16x768x256.rank)
  dot_S16x768x32x9_S128x9_S16x768x32x128_3_1_012_0_n_n_wf : DotDims.WF S16x768x32x9 S128x9 S16x768x32x128 [3] [1] [0, 1, 2] [0] [] []
  dot_S16x768x32x256_S128x256_S16x768x32x128_3_1_012_0_n_n_wf : DotDims.WF S16x768x32x256 S128x256 S16x768x32x128 [3] [1] [0, 1, 2] [0] [] []
  dot_S16x768x32x128_S128x128_S16x768x32x128_3_1_012_0_n_n_wf : DotDims.WF S16x768x32x128 S128x128 S16x768x32x128 [3] [1] [0, 1, 2] [0] [] []
  dot_S16x768x128_S128x128_S16x768x128_2_1_01_0_n_n_wf : DotDims.WF S16x768x128 S128x128 S16x768x128 [2] [1] [0, 1] [0] [] []
  dot_S16x768x128_S256x128_S16x768x256_2_1_01_0_n_n_wf : DotDims.WF S16x768x128 S256x128 S16x768x256 [2] [1] [0, 1] [0] [] []

variable [Facts₀]

def dot_S16x768x32x9_S128x9_S16x768x32x128_3_1_012_0_n_n : DotDims S16x768x32x9 S128x9 S16x768x32x128 where
  lhsContracting := [3]
  rhsContracting := [1]
  lhsNonContracting := [0, 1, 2]
  rhsNonContracting := [0]
  lhsBatch := []
  rhsBatch := []
  wf := dot_S16x768x32x9_S128x9_S16x768x32x128_3_1_012_0_n_n_wf
def dot_S16x768x32x256_S128x256_S16x768x32x128_3_1_012_0_n_n : DotDims S16x768x32x256 S128x256 S16x768x32x128 where
  lhsContracting := [3]
  rhsContracting := [1]
  lhsNonContracting := [0, 1, 2]
  rhsNonContracting := [0]
  lhsBatch := []
  rhsBatch := []
  wf := dot_S16x768x32x256_S128x256_S16x768x32x128_3_1_012_0_n_n_wf
def dot_S16x768x32x128_S128x128_S16x768x32x128_3_1_012_0_n_n : DotDims S16x768x32x128 S128x128 S16x768x32x128 where
  lhsContracting := [3]
  rhsContracting := [1]
  lhsNonContracting := [0, 1, 2]
  rhsNonContracting := [0]
  lhsBatch := []
  rhsBatch := []
  wf := dot_S16x768x32x128_S128x128_S16x768x32x128_3_1_012_0_n_n_wf
def dot_S16x768x128_S128x128_S16x768x128_2_1_01_0_n_n : DotDims S16x768x128 S128x128 S16x768x128 where
  lhsContracting := [2]
  rhsContracting := [1]
  lhsNonContracting := [0, 1]
  rhsNonContracting := [0]
  lhsBatch := []
  rhsBatch := []
  wf := dot_S16x768x128_S128x128_S16x768x128_2_1_01_0_n_n_wf
def dot_S16x768x128_S256x128_S16x768x256_2_1_01_0_n_n : DotDims S16x768x128 S256x128 S16x768x256 where
  lhsContracting := [2]
  rhsContracting := [1]
  lhsNonContracting := [0, 1]
  rhsNonContracting := [0]
  lhsBatch := []
  rhsBatch := []
  wf := dot_S16x768x128_S256x128_S16x768x256_2_1_01_0_n_n_wf

class Facts : Prop extends Facts₀ where

variable [Facts]
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Poly.lean ====
/-
  One polyline of the encoder, on the extended reals.

  A polyline is 32 points of 9 coordinates with a 0/1 mark per point. Each point goes through a linear layer
  followed by a normalisation (h - mean) * (gain * rsqrt (variance + eps)) + bias and a rectifier, and is multiplied by
  its mark; the 32 results are pooled by a maximum per channel; each point's 128 features are laid beside the 128 pooled
  ones and go through two more such layers, the second again multiplied by the mark and pooled by a maximum; the
  pooled vector goes through a rectified affine layer and an affine layer; and the result is multiplied by the maximum
  of the marks, which is 1 when some point is marked and 0 otherwise.

  Two laws of the extended reals join a program that multiplies by a 0/1 mark to one that selects by the mark's bit:
  x * 1 = x and x * 0 = 0 hold for every extended real x, the infinities included; and the maximum, from minus infinity, of
  finitely many (at least one) 0/1 values is 1 exactly when one of them is 1, which is what the disjunction of the bits says.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Poly

open Idealize.ShloMosaic Idealize.ShloMosaic.ValueIdx

/-- The variance offset both programs add: the single-precision word nearest to 1e-5, at its exact binary value. -/
abbrev eps : EReal := Ideal.ofBits .f32 0x3727C5AC#32
/-- The zero word a rectifier compares with and a select writes. -/
abbrev zero : EReal := Ideal.ofBits .f32 0x00000000#32
/-- The word a maximum starts from: minus infinity. -/
abbrev ninf : EReal := Ideal.ofBits .f32 0xFF800000#32

theorem zero_eq : zero = 0 := Ideal.ofBits_zero_f32
theorem ninf_eq : ninf = ⊥ := by simp [ninf, Ideal.ofBits, Ideal.ieee]

/-- The weights of the five linear layers and the three normalisations, entry by entry. -/
structure Weights where
  Wp : Fin 128 → Fin 9 → EReal
  gp : Fin 128 → EReal
  bp : Fin 128 → EReal
  mp : Fin 128 → EReal
  vp : Fin 128 → EReal
  W1 : Fin 128 → Fin 256 → EReal
  g1 : Fin 128 → EReal
  b1 : Fin 128 → EReal
  m1 : Fin 128 → EReal
  v1 : Fin 128 → EReal
  W2 : Fin 128 → Fin 128 → EReal
  g2 : Fin 128 → EReal
  b2 : Fin 128 → EReal
  m2 : Fin 128 → EReal
  v2 : Fin 128 → EReal
  Wo1 : Fin 128 → Fin 128 → EReal
  bo1 : Fin 128 → EReal
  Wo2 : Fin 256 → Fin 128 → EReal
  bo2 : Fin 256 → EReal

abbrev Vec1 (n : Nat) := (⟨1, ![n]⟩ : Shape).Idx → EReal
abbrev Mat (a b : Nat) := (⟨2, ![a, b]⟩ : Shape).Idx → EReal

/-- The weights read off the nineteen weight arrays, in the order both programs take them. -/
def Weights.of (x2 : Mat 128 9) (x3 x4 x5 x6 : Vec1 128) (x7 : Mat 128 256) (x8 x9 x10 x11 : Vec1 128)
    (x12 : Mat 128 128) (x13 x14 x15 x16 : Vec1 128) (x17 : Mat 128 128) (x18 : Vec1 128) (x19 : Mat 256 128)
    (x20 : Vec1 256) : Weights where
  Wp := fun c k => x2 (ix2 c k)
  gp := fun c => x3 (ix1 c)
  bp := fun c => x4 (ix1 c)
  mp := fun c => x5 (ix1 c)
  vp := fun c => x6 (ix1 c)
  W1 := fun c j => x7 (ix2 c j)
  g1 := fun c => x8 (ix1 c)
  b1 := fun c => x9 (ix1 c)
  m1 := fun c => x10 (ix1 c)
  v1 := fun c => x11 (ix1 c)
  W2 := fun c j => x12 (ix2 c j)
  g2 := fun c => x13 (ix1 c)
  b2 := fun c => x14 (ix1 c)
  m2 := fun c => x15 (ix1 c)
  v2 := fun c => x16 (ix1 c)
  Wo1 := fun c j => x17 (ix2 c j)
  bo1 := fun c => x18 (ix1 c)
  Wo2 := fun o j => x19 (ix2 o j)
  bo2 := fun o => x20 (ix1 o)

/-! ## The encoder of one polyline -/

section
variable (w : Weights) (X : Fin 32 → Fin 9 → EReal) (mk : Fin 32 → EReal)

/-- Normalise with the stored statistics, then rectify. -/
def norm (g b mu v h : EReal) : EReal := max ((h - mu) * (g * Ideal.rsqrt (v + eps)) + b) zero

/-- A point's features: the first layer, times the point's mark. -/
def feat (n : Fin 32) (c : Fin 128) : EReal :=
  norm (w.gp c) (w.bp c) (w.mp c) (w.vp c) (∑ k : Fin 9, X n k * w.Wp c k) * mk n

/-- The polyline's pooled features: per channel the maximum over its points. -/
def pool (c : Fin 128) : EReal := (Finset.univ : Finset (Fin 32)).fold max ninf (fun n => feat w X mk n c)

/-- A point's own features beside the pooled ones. -/
def cat (n : Fin 32) (j : Fin 256) : EReal :=
  if h : j.val < 128 then feat w X mk n ⟨j.val, h⟩ else pool w X mk ⟨j.val - 128, by omega⟩

/-- The second layer … -/
def hid1 (n : Fin 32) (c : Fin 128) : EReal :=
  norm (w.g1 c) (w.b1 c) (w.m1 c) (w.v1 c) (∑ j : Fin 256, cat w X mk n j * w.W1 c j)

/-- … and the third, times the point's mark. -/
def hid2 (n : Fin 32) (c : Fin 128) : EReal :=
  norm (w.g2 c) (w.b2 c) (w.m2 c) (w.v2 c) (∑ j : Fin 128, hid1 w X mk n j * w.W2 c j) * mk n

/-- Pooled again over the points. -/
def pool2 (c : Fin 128) : EReal := (Finset.univ : Finset (Fin 32)).fold max ninf (fun n => hid2 w X mk n c)

/-- The first output layer: affine, rectified. -/
def out1 (c : Fin 128) : EReal := max ((∑ j : Fin 128, pool2 w X mk j * w.Wo1 c j) + w.bo1 c) zero

/-- Whether the polyline has a marked point, as the maximum of its marks. -/
def valid : EReal := (Finset.univ : Finset (Fin 32)).fold max ninf mk

/-- The encoding of the polyline: the second output layer, kept when the polyline has a marked point. -/
def out (o : Fin 256) : EReal := ((∑ j : Fin 128, out1 w X mk j * w.Wo2 o j) + w.bo2 o) * valid mk

end

/-! ## A bit as a number, and the two laws of marks -/

/-- A one-bit word read unsigned: the number 0 or 1. -/
def bit (b : BitVec 1) : EReal := ((b.toNat : ℝ) : EReal)

theorem bit_one : bit 1#1 = 1 := by simp [bit]
theorem bit_zero : bit 0#1 = 0 := by simp [bit]

theorem bit_nonneg (b : BitVec 1) : (0 : EReal) ≤ bit b := by
  by_cases h : b = 1#1
  · rw [h, bit_one]; exact zero_le_one
  · rw [eq_zero_of_ne_one h, bit_zero]

/-- Keeping a value where the bit is set and writing zero elsewhere is multiplying by the bit: x * 1 = x and x * 0 = 0
    for every extended real x. -/
theorem select_eq_mul (b : BitVec 1) (x : EReal) : Scalar.select b x zero = x * bit b := by
  by_cases h : b = 1#1
  · rw [h, select_one, bit_one, mul_one]
  · rw [eq_zero_of_ne_one h, select_zero, bit_zero, mul_zero, zero_eq]

theorem ori_eq_one (y z : BitVec 1) : IntOp.ori y z = 1#1 ↔ y = 1#1 ∨ z = 1#1 := by
  rcases BitVec.eq_zero_or_eq_one y with hy | hy <;> rcases BitVec.eq_zero_or_eq_one z with hz | hz <;>
    subst hy <;> subst hz <;> decide

/-- The disjunction of 32 bits is set exactly when one of them is. -/
theorem fold_ori_eq_one (f : Fin 32 → BitVec 1) :
    (Finset.univ : Finset (Fin 32)).fold IntOp.ori 0#1 f = 1#1 ↔ ∃ n, f n = 1#1 := by
  have h := Finset.fold_op_rel_iff_or (op := IntOp.ori) (r := fun (_ w : BitVec 1) => w = 1#1)
    (fun {_ y z} => ori_eq_one y z) (c := 0#1) (b := 0#1) (f := f) (s := Finset.univ)
  refine h.trans ⟨fun h => ?_, fun ⟨n, hn⟩ => Or.inr ⟨n, Finset.mem_univ _, hn⟩⟩
  rcases h with h | ⟨n, _, hn⟩
  · exact absurd h (by decide)
  · exact ⟨n, hn⟩

/-- The disjunction of the bits, read as a number, is the maximum from minus infinity of the bits read as numbers. -/
theorem bit_fold_ori (f : Fin 32 → BitVec 1) :
    bit ((Finset.univ : Finset (Fin 32)).fold IntOp.ori 0#1 f) = valid (fun n => bit (f n)) := by
  unfold valid
  apply le_antisymm
  · by_cases h : (Finset.univ : Finset (Fin 32)).fold IntOp.ori 0#1 f = 1#1
    · obtain ⟨n, hn⟩ := (fold_ori_eq_one f).1 h
      rw [h, bit_one]
      exact (Finset.le_fold_max _).2 (Or.inr ⟨n, Finset.mem_univ _, by rw [hn, bit_one]⟩)
    · rw [eq_zero_of_ne_one h, bit_zero]
      exact (Finset.le_fold_max _).2 (Or.inr ⟨0, Finset.mem_univ _, bit_nonneg _⟩)
  · refine (Finset.fold_max_le _).2 ⟨by rw [ninf_eq]; exact bot_le, fun n _ => ?_⟩
    by_cases hn : f n = 1#1
    · rw [(fold_ori_eq_one f).2 ⟨n, hn⟩, hn]
    · rw [eq_zero_of_ne_one hn, bit_zero]; exact bit_nonneg _

/-- Keeping a value when some bit of the row is set is multiplying by the maximum of the bits. -/
theorem select_fold_ori (f : Fin 32 → BitVec 1) (x : EReal) :
    Scalar.select ((Finset.univ : Finset (Fin 32)).fold IntOp.ori 0#1 f) x zero = x * valid (fun n => bit (f n)) := by
  rw [select_eq_mul, bit_fold_ori]

/-! ## The whole result array -/

/-- The encoder over all 16 * 768 polylines: entry (b, p, o) is polyline (b, p)'s encoding at channel o. -/
def G (x0 : (⟨4, ![16, 768, 32, 9]⟩ : Shape).Idx → EReal) (x1 : (⟨3, ![16, 768, 32]⟩ : Shape).Idx → BitVec 1)
    (w : Weights) : (⟨3, ![16, 768, 256]⟩ : Shape).Idx → EReal :=
  fun i => out w (fun n k => x0 (ix4 (i 0) (i 1) n k)) (fun n => bit (x1 (ix3 (i 0) (i 1) n))) (i 2)

theorem G_apply (x0 : (⟨4, ![16, 768, 32, 9]⟩ : Shape).Idx → EReal) (x1 : (⟨3, ![16, 768, 32]⟩ : Shape).Idx → BitVec 1)
    (w : Weights) (b : Fin 16) (p : Fin 768) (o : Fin 256) :
    G x0 x1 w (ix3 b p o) = out w (fun n k => x0 (ix4 b p n k)) (fun n => bit (x1 (ix3 b p n))) o := rfl

end Cert.Poly

end
-- ==== Proof.LibTileLayers.lean ====
/-
  Layers of a row-tiled network read at an entry, on the extended reals, over literal-free extents.

  A tile holds R rows of C channels. Read at entry (r, c):
  a vector of C channels cast to one row and spread over the R rows is its entry c (row_apply); a column [R, 1] spread over
  C channels is its entry r (col_apply); an [A * B, C] array recast as [A, B, C] and back keeps entry (p * B + n, c) at (p, n, c)
  (rows_to_stack, stack_to_rows); the maximum along the middle axis of an [A, B, C] stack is the fold of max over n of
  the entries (p, n, c) (maxMid_apply); the stretch subtract a mean row, scale by gain * rsqrt (variance + eps), add a bias row,
  rectify is Poly.norm of the entry (normT_apply); the product of the rows with a transposed weight matrix [C, K] into a
  zero accumulator is the sum over k of x (r, k) * W (c, k) (lin_apply); and two arrays joined along the channel axis read
  the left one below its width and the right one above (catcols_left, catcols_right).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«162664_j18511309045816_2_alg».proof.Proof.LibMatmulPlain
import proofs.«162664_j18511309045816_2_alg».proof.Proof.Poly

noncomputable section

open scoped BigOperators

namespace Cert.Tile

open Idealize.ShloMosaic Idealize.ShloMosaic.ValueIdx

variable {α : Type}

/-! ## Rows and columns spread over a tile -/

/-- A vector cast to one row and spread over the rows: entry (r, c) is the vector's entry c. -/
theorem row_apply {R C : Nat} (v : (⟨1, ![C]⟩ : Shape).Idx → α) (hc : (⟨1, ![C]⟩ : Shape).ShapeCasts ⟨2, ![1, C]⟩)
    (hb : (⟨2, ![1, C]⟩ : Shape).Broadcasts ⟨2, ![R, C]⟩) (r : Fin R) (c : Fin C) :
    broadcastTo ⟨2, ![R, C]⟩ (shapeCast ⟨2, ![1, C]⟩ v hc) hb (ix2 r c) = v (ix1 c) := by
  rw [broadcastTo_1b_ab_apply, shapeCast_a_1a_apply]

/-- A column spread over the channels: entry (r, c) is the column's entry r. -/
theorem col_apply {R C : Nat} (col : (⟨2, ![R, 1]⟩ : Shape).Idx → α) (hb : (⟨2, ![R, 1]⟩ : Shape).Broadcasts ⟨2, ![R, C]⟩)
    (r : Fin R) (c : Fin C) : broadcastTo ⟨2, ![R, C]⟩ col hb (ix2 r c) = col (ix2 r (0 : Fin 1)) := by
  refine broadcastTo_apply col hb (ix2 r c) (ix2 r (0 : Fin 1)) fun ax => ?_
  match ax with
  | ⟨0, _⟩ =>
    show r.val = if R = 1 then 0 else r.val
    split
    · have := r.isLt; omega
    · rfl
  | ⟨1, _⟩ => rfl

/-! ## Rows of a tile as a stack of groups of rows -/

/-- An [N, C] array recast as [A, B, C]: entry (p, n, c) is the entry at row p * B + n. -/
theorem rows_to_stack {A B C N : Nat} (x : (⟨2, ![N, C]⟩ : Shape).Idx → α)
    (h : (⟨2, ![N, C]⟩ : Shape).ShapeCasts ⟨3, ![A, B, C]⟩) (p : Fin A) (n : Fin B) (c : Fin C) (r : Fin N)
    (hr : r.val = p.val * B + n.val) : shapeCast ⟨3, ![A, B, C]⟩ x h (ix3 p n c) = x (ix2 r c) :=
  shapeCast_apply x h _ _ (by
    rw [Shape.rowMajor_val_two, Shape.rowMajor_val_three]
    show r.val * C + c.val = (p.val * B + n.val) * C + c.val
    rw [hr])

/-- An [A, B, C] array recast as [N, C]: the entry at row p * B + n is entry (p, n, c). -/
theorem stack_to_rows {A B C N : Nat} (x : (⟨3, ![A, B, C]⟩ : Shape).Idx → α)
    (h : (⟨3, ![A, B, C]⟩ : Shape).ShapeCasts ⟨2, ![N, C]⟩) (p : Fin A) (n : Fin B) (c : Fin C) (r : Fin N)
    (hr : r.val = p.val * B + n.val) : shapeCast ⟨2, ![N, C]⟩ x h (ix2 r c) = x (ix3 p n c) :=
  shapeCast_apply x h _ _ (by
    rw [Shape.rowMajor_val_two, Shape.rowMajor_val_three]
    show (p.val * B + n.val) * C + c.val = r.val * C + c.val
    rw [hr])

/-- An [A, C] array given a unit middle axis: entry (p, u, c) is entry (p, c). -/
theorem add_mid_unit {A C : Nat} (x : (⟨2, ![A, C]⟩ : Shape).Idx → α)
    (h : (⟨2, ![A, C]⟩ : Shape).ShapeCasts ⟨3, ![A, 1, C]⟩) (p : Fin A) (u : Fin 1) (c : Fin C) :
    shapeCast ⟨3, ![A, 1, C]⟩ x h (ix3 p u c) = x (ix2 p c) :=
  shapeCast_apply x h _ _ (by
    rw [Shape.rowMajor_val_two, Shape.rowMajor_val_three]
    have hu : u.val = 0 := by omega
    show p.val * C + c.val = (p.val * 1 + u.val) * C + c.val
    rw [hu, Nat.mul_one, Nat.add_zero])

/-- An [A, 1, C] array spread along its unit axis over [A, B, C]: entry (p, n, c) is entry (p, 0, c). -/
theorem spread_mid {A B C : Nat} (x : (⟨3, ![A, 1, C]⟩ : Shape).Idx → α)
    (h : (⟨3, ![A, 1, C]⟩ : Shape).Broadcasts ⟨3, ![A, B, C]⟩) (p : Fin A) (n : Fin B) (c : Fin C) :
    broadcastTo ⟨3, ![A, B, C]⟩ x h (ix3 p n c) = x (ix3 p (0 : Fin 1) c) := by
  refine broadcastTo_apply x h (ix3 p n c) (ix3 p (0 : Fin 1) c) fun ax => ?_
  match ax with
  | ⟨0, _⟩ =>
    show p.val = if A = 1 then 0 else p.val
    split
    · have := p.isLt; omega
    · rfl
  | ⟨1, _⟩ => rfl
  | ⟨2, _⟩ =>
    show c.val = if C = 1 then 0 else c.val
    split
    · have := c.isLt; omega
    · rfl

/-! ## The maximum over a group of rows -/

/-- The maximum along the middle axis of an [A, B, C] stack: the fold of max over the B entries (p, n, c). -/
theorem maxMid_apply {A B C : Nat} (x : FVec Ideal ⟨3, ![A, B, C]⟩ .f32) (acc : BitVec 32)
    (h : (⟨3, ![A, B, C]⟩ : Shape).Reduces [1] ⟨2, ![A, C]⟩) (hφ : FKind.Formats .f32)
    (hacc : acc = FKind.maximumf.neutral .f32 hφ) (p : Fin A) (c : Fin C) :
    multiReduction .maximumf [1] ⟨2, ![A, C]⟩ x acc h hφ hacc (ix2 p c)
      = (Finset.univ : Finset (Fin B)).fold max (Ideal.ofBits .f32 acc) (fun n => x (ix3 p n c)) := by
  refine (Ideal.multiReduction_maximumf_single x acc h hφ hacc (ix2 p c)).trans ?_
  show (Finset.univ : Finset (Fin B)).fold max (Ideal.ofBits .f32 acc) (x ∘ h.lift (ix2 p c)) = _
  refine congrArg (fun f => (Finset.univ : Finset (Fin B)).fold max (Ideal.ofBits .f32 acc) f) (funext fun n => ?_)
  exact congrArg x (funext fun a => Fin.ext (by
    match a with
    | ⟨0, _⟩ => rfl
    | ⟨1, _⟩ => rfl
    | ⟨2, _⟩ => rfl))

/-! ## Normalise and rectify, in a tile's spelling -/

/-- Subtract the mean row, scale by gain * rsqrt (variance + eps), add the bias row, rectify. -/
def normT {R C : Nat} (h : FVec Ideal ⟨2, ![R, C]⟩ .f32) (g b mu v : FVec Ideal ⟨1, ![C]⟩ .f32)
    (hc : (⟨1, ![C]⟩ : Shape).ShapeCasts ⟨2, ![1, C]⟩) (hb : (⟨2, ![1, C]⟩ : Shape).Broadcasts ⟨2, ![R, C]⟩) :
    FVec Ideal ⟨2, ![R, C]⟩ .f32 :=
  maximumf
    (addf
      (mulf (subf h (broadcastTo ⟨2, ![R, C]⟩ (shapeCast ⟨2, ![1, C]⟩ mu hc) hb))
        (broadcastTo ⟨2, ![R, C]⟩
          (shapeCast ⟨2, ![1, C]⟩ (mulf g (rsqrt (addf v (broadcast ⟨1, ![C]⟩ (Scalar.ofBits (F := Ideal) .f32 0x3727C5AC#32))))) hc) hb))
      (broadcastTo ⟨2, ![R, C]⟩ (shapeCast ⟨2, ![1, C]⟩ b hc) hb))
    (broadcast ⟨2, ![R, C]⟩ (Scalar.ofBits (F := Ideal) .f32 0x00000000#32))

theorem normT_apply {R C : Nat} (h : FVec Ideal ⟨2, ![R, C]⟩ .f32) (g b mu v : FVec Ideal ⟨1, ![C]⟩ .f32)
    (hc : (⟨1, ![C]⟩ : Shape).ShapeCasts ⟨2, ![1, C]⟩) (hb : (⟨2, ![1, C]⟩ : Shape).Broadcasts ⟨2, ![R, C]⟩)
    (r : Fin R) (c : Fin C) :
    normT h g b mu v hc hb (ix2 r c)
      = Poly.norm (g (ix1 c)) (b (ix1 c)) (mu (ix1 c)) (v (ix1 c)) (h (ix2 r c)) := by
  unfold normT Poly.norm
  simp only [maximumf_apply, addf_apply, mulf_apply, subf_apply, row_apply, broadcast_apply]
  rfl

/-! ## A linear layer against a transposed weight matrix -/

/-- The rows times the transpose of a [C, K] weight matrix, into zero: entry (r, c) is the sum over k of x (r, k) * W (c, k). -/
theorem lin_apply {R K C : Nat} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![R, K]⟩ φ₁) (W : FVec Ideal ⟨2, ![C, K]⟩ φ₂)
    (ht : (⟨2, ![C, K]⟩ : Shape).Transposes [1, 0] ⟨2, ![K, C]⟩) (r : Fin R) (c : Fin C) :
    FloatOps.matmul d none x (transpose ⟨2, ![K, C]⟩ [1, 0] W ht) (constant ⟨2, ![R, C]⟩ .f32 0x00000000#32) (ix2 r c)
      = ∑ k : Fin K, x (ix2 r k) * W (ix2 c k) := by
  refine (Cert.LibMatmulPlain.matmul_zero_apply d hlc hrc hln hrn hlb hrb none x _ r c).trans ?_
  refine Finset.sum_congr rfl fun k _ => ?_
  rw [transpose_ix2_apply]

/-! ## Two arrays side by side -/

/-- Joined along the channel axis, an entry below the left width is the left array's … -/
theorem catcols_left {R C1 C2 T : Nat} (x₁ : (⟨2, ![R, C1]⟩ : Shape).Idx → α) (x₂ : (⟨2, ![R, C2]⟩ : Shape).Idx → α)
    (h : Shape.Concatenates [⟨2, ![R, C1]⟩, ⟨2, ![R, C2]⟩] ⟨2, ![R, T]⟩ 1) (r : Fin R) (j : Fin T) (q : Fin C1)
    (hq : q.val = j.val) :
    concatenate ⟨2, ![R, T]⟩ 1 [⟨⟨2, ![R, C1]⟩, x₁⟩, ⟨⟨2, ![R, C2]⟩, x₂⟩] h (ix2 r j) = x₁ (ix2 r q) :=
  concatenate_pair_apply_left 1 x₁ x₂ h (ix2 r j) rfl (ix2 r q) fun b => by
    match b with
    | ⟨0, _⟩ => rfl
    | ⟨1, _⟩ => exact hq

/-- … and an entry from the left width on is the right array's, that many channels back. -/
theorem catcols_right {R C1 C2 T : Nat} (x₁ : (⟨2, ![R, C1]⟩ : Shape).Idx → α) (x₂ : (⟨2, ![R, C2]⟩ : Shape).Idx → α)
    (h : Shape.Concatenates [⟨2, ![R, C1]⟩, ⟨2, ![R, C2]⟩] ⟨2, ![R, T]⟩ 1) (r : Fin R) (j : Fin T) (q : Fin C2)
    (hq : q.val + C1 = j.val) :
    concatenate ⟨2, ![R, T]⟩ 1 [⟨⟨2, ![R, C1]⟩, x₁⟩, ⟨⟨2, ![R, C2]⟩, x₂⟩] h (ix2 r j) = x₂ (ix2 r q) :=
  concatenate_pair_apply_right 1 x₁ x₂ h (ix2 r j) rfl rfl (ix2 r q)
    (fun b hb => by
      match b, hb with
      | ⟨0, _⟩, _ => rfl
      | ⟨1, _⟩, hb => exact absurd rfl hb)
    hq

end Cert.Tile

end
-- ==== Proof.TileFeat.lean ====
/-
  The first layer of the kernel's body on a tile of 64 polylines, read at an entry.

  A tile holds 64 polylines of 32 points each as 2048 rows: point n of polyline pp is row pp * 32 + n. Read at that row,
  the first layer's output is Poly.feat of the polyline (its 32 x 9 coordinates and its 32 marks, read off the two blocks
  the body loads), the maximum over each group of 32 rows is Poly.pool, and the 256-channel array that lays a row's own
  128 features beside its polyline's 128 pooled ones is Poly.cat.
-/
import proofs.«162664_j18511309045816_2_alg».proof.Proof.Gen.KernelIdeal.Frame
import proofs.«162664_j18511309045816_2_alg».proof.Proof.LibTileLayers
import Idealize.ShloMosaic.Lib.ValueIdx
import Idealize.ShloMosaic.Lib.ValueLayout
import Idealize.ShloMosaic.Lib.Pipeline.Value

noncomputable section

open scoped BigOperators

namespace Cert.KernelIdeal.TileValue

open Cert.KernelIdeal Cert.KernelIdeal.Gen
open Idealize.ShloMosaic Idealize.ShloMosaic.ValueIdx

/-- The row of the tile that holds point n of polyline pp. -/
def row (pp : Fin 64) (n : Fin 32) : Fin 2048 :=
  ⟨pp.val * 32 + n.val, by have := pp.isLt; have := n.isLt; omega⟩

/-! ## The marks as a column of the tile -/

/-- The block of marks [1, 64, 32, 1] recast as a column [2048, 1]: row pp * 32 + n holds the mark of point n of polyline pp. -/
theorem mask_apply (v27 : Vec Ideal S1x64x32x1 .f32) (pp : Fin 64) (n : Fin 32) :
    k0_pay2 v27 (ix2 (row pp n) (0 : Fin 1)) = v27 (ix4 (0 : Fin 1) pp n (0 : Fin 1)) := by
  show shapeCast S2048x1 (shapeCast S64x32x1 v27 shapeCasts_S1x64x32x1_S64x32x1) shapeCasts_S64x32x1_S2048x1
      (ix2 (row pp n) (0 : Fin 1)) = _
  refine (Tile.stack_to_rows _ _ pp n (0 : Fin 1) (row pp n) rfl).trans ?_
  exact shapeCast_1abc_abc_apply _ _ pp n (0 : Fin 1)

/-! ## The first layer -/

/-- The first layer's output on the tile: the rows times the transposed weights, normalised and rectified, times the marks. -/
def featT (v0 : Vec Ideal S1x64x32x9 .f32) (v4 : Vec Ideal S128x9 .f32) (v8 v9 v10 v11 : Vec Ideal S128 .f32)
    (v27 : Vec Ideal S1x64x32x1 .f32) : FVec Ideal S2048x128 .f32 :=
  mulf
    (Tile.normT
      (matmul dot_S2048x9_S9x128_S2048x128_1_0_0_1_n_n none
        (shapeCast S2048x9 (truncf .bf16 (shapeCast S64x32x9 v0 shapeCasts_S1x64x32x9_S64x32x9) bitsLt_bf16_f32)
          shapeCasts_S64x32x9_S2048x9)
        (transpose S9x128 [1, 0] (truncf .bf16 v4 bitsLt_bf16_f32) transposes_S128x9_p1_0_S9x128)
        (constant (F := Ideal) S2048x128 .f32 0x00000000#32))
      v8 v9 v10 v11 shapeCasts_S128_S1x128 broadcasts_S1x128_S2048x128)
    (broadcastTo S2048x128 (k0_pay2 v27) broadcasts_S2048x1_S2048x128)

/-- The pooled features of the tile's 64 polylines. -/
def poolT (f : FVec Ideal S2048x128 .f32) : FVec Ideal S64x128 .f32 :=
  multiReduction .maximumf [1] S64x128 (shapeCast S64x32x128 f shapeCasts_S2048x128_S64x32x128) 0xFF800000#32
    reduces_S64x32x128_S64x128 (.inl rfl) rfl

/-- The body's 256-channel array is the features beside the pooled features spread back over each polyline's rows. -/
theorem pay3_eq (v0 : Vec Ideal S1x64x32x9 .f32) (v4 : Vec Ideal S128x9 .f32) (v8 v9 v10 v11 : Vec Ideal S128 .f32)
    (v27 : Vec Ideal S1x64x32x1 .f32) :
    k0_pay3 v0 v4 v8 v9 v10 v11 v27
      = concatenate S2048x256 1
          [⟨S2048x128, featT v0 v4 v8 v9 v10 v11 v27⟩,
           ⟨S2048x128, shapeCast S2048x128
              (broadcastTo S64x32x128
                (shapeCast S64x1x128 (shapeCast S64x1x128 (poolT (featT v0 v4 v8 v9 v10 v11 v27)) shapeCasts_S64x128_S64x1x128)
                  shapeCasts_S64x1x128_S64x1x128)
                broadcasts_S64x1x128_S64x32x128)
              shapeCasts_S64x32x128_S2048x128⟩]
          concatenates_S2048x128_S2048x128_S2048x256_d1 := rfl

section
variable (w : Poly.Weights) (v0 : Vec Ideal S1x64x32x9 .f32) (v4 : Vec Ideal S128x9 .f32)
  (v8 v9 v10 v11 : Vec Ideal S128 .f32) (v27 : Vec Ideal S1x64x32x1 .f32)
  (hW : ∀ c k, w.Wp c k = v4 (ix2 c k)) (hg : ∀ c, w.gp c = v8 (ix1 c)) (hb : ∀ c, w.bp c = v9 (ix1 c))
  (hm : ∀ c, w.mp c = v10 (ix1 c)) (hv : ∀ c, w.vp c = v11 (ix1 c))

include hW hg hb hm hv in
/-- Row pp * 32 + n of the first layer's output is point n's features. -/
theorem featT_apply (pp : Fin 64) (n : Fin 32) (c : Fin 128) :
    featT v0 v4 v8 v9 v10 v11 v27 (ix2 (row pp n) c)
      = Poly.feat w (fun n k => v0 (ix4 (0 : Fin 1) pp n k)) (fun n => v27 (ix4 (0 : Fin 1) pp n (0 : Fin 1))) n c := by
  unfold featT Poly.feat
  rw [mulf_apply, Tile.normT_apply, Tile.col_apply, mask_apply, hg, hb, hm, hv]
  congr 2
  refine (Tile.lin_apply dot_S2048x9_S9x128_S2048x128_1_0_0_1_n_n rfl rfl rfl rfl rfl rfl _ _ _ (row pp n) c).trans ?_
  refine Finset.sum_congr rfl fun k _ => ?_
  rw [hW]
  refine congrArg (· * v4 (ix2 c k)) ?_
  refine (Tile.stack_to_rows _ _ pp n k (row pp n) rfl).trans ?_
  exact shapeCast_1abc_abc_apply _ _ pp n k

include hW hg hb hm hv in
/-- The maximum over polyline pp's 32 rows is its pooled features. -/
theorem poolT_apply (pp : Fin 64) (c : Fin 128) :
    poolT (featT v0 v4 v8 v9 v10 v11 v27) (ix2 pp c)
      = Poly.pool w (fun n k => v0 (ix4 (0 : Fin 1) pp n k)) (fun n => v27 (ix4 (0 : Fin 1) pp n (0 : Fin 1))) c := by
  unfold poolT Poly.pool
  refine (Tile.maxMid_apply _ _ _ _ _ pp c).trans ?_
  refine congrArg (fun f => (Finset.univ : Finset (Fin 32)).fold max Poly.ninf f) (funext fun n => ?_)
  refine (Tile.rows_to_stack _ _ pp n c (row pp n) rfl).trans ?_
  exact featT_apply w v0 v4 v8 v9 v10 v11 v27 hW hg hb hm hv pp n c

include hW hg hb hm hv in
/-- Row pp * 32 + n of the 256-channel array is point n's features beside polyline pp's pooled ones. -/
theorem pay3_apply (pp : Fin 64) (n : Fin 32) (j : Fin 256) :
    k0_pay3 v0 v4 v8 v9 v10 v11 v27 (ix2 (row pp n) j)
      = Poly.cat w (fun n k => v0 (ix4 (0 : Fin 1) pp n k)) (fun n => v27 (ix4 (0 : Fin 1) pp n (0 : Fin 1))) n j := by
  rw [pay3_eq]
  unfold Poly.cat
  by_cases hj : j.val < 128
  · rw [dif_pos hj]
    refine (Tile.catcols_left _ _ _ (row pp n) j ⟨j.val, hj⟩ rfl).trans ?_
    exact featT_apply w v0 v4 v8 v9 v10 v11 v27 hW hg hb hm hv pp n _
  · rw [dif_neg hj]
    have hq : j.val - 128 < 128 := by have := j.isLt; omega
    refine (Tile.catcols_right _ _ _ (row pp n) j ⟨j.val - 128, hq⟩ (by show j.val - 128 + 128 = j.val; omega)).trans ?_
    refine (Tile.stack_to_rows _ _ pp n ⟨j.val - 128, hq⟩ (row pp n) rfl).trans ?_
    refine (Tile.spread_mid _ _ pp n ⟨j.val - 128, hq⟩).trans ?_
    rw [shapeCast_self]
    refine (Tile.add_mid_unit _ _ pp (0 : Fin 1) ⟨j.val - 128, hq⟩).trans ?_
    exact poolT_apply w v0 v4 v8 v9 v10 v11 v27 hW hg hb hm hv pp _

end

end Cert.KernelIdeal.TileValue

end
-- ==== Proof.TileBody.lean ====
/-
  The rest of the kernel's body on a tile of 64 polylines, and the block it stores, read at an entry.

  From the 256-channel array of TileFeat: the second layer (Poly.hid1) and the third, times the marks (Poly.hid2), row by
  row; the maximum over each polyline's 32 rows (Poly.pool2); on the 64 pooled rows the rectified affine layer (Poly.out1) and the
  affine layer; and the product with the maximum of the polyline's marks. So entry (0, pp, o) of the block the body stores is
  Poly.out of polyline pp of the tile, whatever the blocks loaded hold.
-/
import proofs.«162664_j18511309045816_2_alg».proof.Proof.TileFeat

noncomputable section

open scoped BigOperators

namespace Cert.KernelIdeal.TileValue

open Cert.KernelIdeal Cert.KernelIdeal.Gen
open Idealize.ShloMosaic Idealize.ShloMosaic.ValueIdx

/-! ## The layers, in the tile's spelling -/

/-- The second layer on the tile. -/
def hid1T (v38 : FVec Ideal S2048x256 .f32) (v39 : Vec Ideal S128x256 .f32) (v44 v45 v46 v47 : Vec Ideal S128 .f32) :
    FVec Ideal S2048x128 .f32 :=
  Tile.normT
    (matmul dot_S2048x256_S256x128_S2048x128_1_0_0_1_n_n none (truncf .bf16 v38 bitsLt_bf16_f32)
      (transpose S256x128 [1, 0] (truncf .bf16 v39 bitsLt_bf16_f32) transposes_S128x256_p1_0_S256x128)
      (constant (F := Ideal) S2048x128 .f32 0x00000000#32))
    v44 v45 v46 v47 shapeCasts_S128_S1x128 broadcasts_S1x128_S2048x128

/-- The third layer on the tile, times the column of marks. -/
def hid2T (h1 : FVec Ideal S2048x128 .f32) (v63 : Vec Ideal S128x128 .f32) (v68 v69 v70 v71 : Vec Ideal S128 .f32)
    (col : FVec Ideal S2048x1 .f32) : FVec Ideal S2048x128 .f32 :=
  mulf
    (Tile.normT
      (matmul dot_S2048x128_S128x128_S2048x128_1_0_0_1_n_n none (truncf .bf16 h1 bitsLt_bf16_f32)
        (transpose S128x128 [1, 0] (truncf .bf16 v63 bitsLt_bf16_f32) transposes_S128x128_p1_0_S128x128)
        (constant (F := Ideal) S2048x128 .f32 0x00000000#32))
      v68 v69 v70 v71 shapeCasts_S128_S1x128 broadcasts_S1x128_S2048x128)
    (broadcastTo S2048x128 col broadcasts_S2048x1_S2048x128)

/-- The first output layer on the 64 pooled rows. -/
def out1T (p : FVec Ideal S64x128 .f32) (v91 : Vec Ideal S128x128 .f32) (v96 : Vec Ideal S128 .f32) : FVec Ideal S64x128 .f32 :=
  maximumf
    (addf
      (matmul dot_S64x128_S128x128_S64x128_1_0_0_1_n_n none (truncf .bf16 p bitsLt_bf16_f32)
        (transpose S128x128 [1, 0] (truncf .bf16 v91 bitsLt_bf16_f32) transposes_S128x128_p1_0_S128x128)
        (constant (F := Ideal) S64x128 .f32 0x00000000#32))
      (broadcastTo S64x128 (shapeCast S1x128 v96 shapeCasts_S128_S1x128) broadcasts_S1x128_S64x128))
    (broadcast S64x128 (Scalar.ofBits (F := Ideal) .f32 0x00000000#32))

/-- The second output layer. -/
def out2T (o1 : FVec Ideal S64x128 .f32) (v102 : Vec Ideal S256x128 .f32) (v107 : Vec Ideal S256 .f32) : FVec Ideal S64x256 .f32 :=
  addf
    (matmul dot_S64x128_S128x256_S64x256_1_0_0_1_n_n none (truncf .bf16 o1 bitsLt_bf16_f32)
      (transpose S128x256 [1, 0] (truncf .bf16 v102 bitsLt_bf16_f32) transposes_S256x128_p1_0_S128x256)
      (constant (F := Ideal) S64x256 .f32 0x00000000#32))
    (broadcastTo S64x256 (shapeCast S1x256 v107 shapeCasts_S256_S1x256) broadcasts_S1x256_S64x256)

/-- Per polyline, the maximum of its marks. -/
def validT (v111 : Vec Ideal S1x64x32x1 .f32) : FVec Ideal S64x1 .f32 :=
  multiReduction .maximumf [1] S64x1 (shapeCast S64x32x1 v111 shapeCasts_S1x64x32x1_S64x32x1) 0xFF800000#32
    reduces_S64x32x1_S64x1 (.inl rfl) rfl

/-- The value the body stores, as these layers composed. -/
theorem body_eq (v38 : FVec Ideal S2048x256 .f32) (x1 : Vec Ideal S1x64x32x1 .f32) (x7 : Vec Ideal S128x256 .f32)
    (x8 x9 x10 x11 : Vec Ideal S128 .f32) (x12 : Vec Ideal S128x128 .f32) (x13 x14 x15 x16 : Vec Ideal S128 .f32)
    (x17 : Vec Ideal S128x128 .f32) (x18 : Vec Ideal S128 .f32) (x19 : Vec Ideal S256x128 .f32) (x20 : Vec Ideal S256 .f32) :
    k0_pay1 (k0_pay2 x1) (k0_pay4 v38 x7 x8 x9 x10 x11 x12 x13 x15 x16) (k0_pay5 x14) x17 x18 x19 x20 x1
      = shapeCast S1x64x256
          (mulf
            (out2T (out1T (poolT (hid2T (hid1T v38 x7 x8 x9 x10 x11) x12 x13 x14 x15 x16 (k0_pay2 x1))) x17 x18) x19 x20)
            (broadcastTo S64x256 (validT x1) broadcasts_S64x1_S64x256))
          shapeCasts_S64x256_S1x64x256 := rfl

/-! ## Each layer at an entry -/

/-- The maximum over polyline pp's 32 rows of any tile array. -/
theorem poolT_of (f : FVec Ideal S2048x128 .f32) (pp : Fin 64) (c : Fin 128) (g : Fin 32 → EReal)
    (hf : ∀ n, f (ix2 (row pp n) c) = g n) :
    poolT f (ix2 pp c) = (Finset.univ : Finset (Fin 32)).fold max Poly.ninf g := by
  unfold poolT
  refine (Tile.maxMid_apply _ _ _ _ _ pp c).trans ?_
  refine congrArg (fun f => (Finset.univ : Finset (Fin 32)).fold max Poly.ninf f) (funext fun n => ?_)
  exact (Tile.rows_to_stack _ _ pp n c (row pp n) rfl).trans (hf n)

section
variable (w : Poly.Weights) (X : Fin 32 → Fin 9 → EReal) (mk : Fin 32 → EReal) (pp : Fin 64)

theorem hid1T_apply (v38 : FVec Ideal S2048x256 .f32) (v39 : Vec Ideal S128x256 .f32) (v44 v45 v46 v47 : Vec Ideal S128 .f32)
    (hW : ∀ c j, w.W1 c j = v39 (ix2 c j)) (hg : ∀ c, w.g1 c = v44 (ix1 c)) (hb : ∀ c, w.b1 c = v45 (ix1 c))
    (hm : ∀ c, w.m1 c = v46 (ix1 c)) (hv : ∀ c, w.v1 c = v47 (ix1 c))
    (hcat : ∀ n j, v38 (ix2 (row pp n) j) = Poly.cat w X mk n j) (n : Fin 32) (c : Fin 128) :
    hid1T v38 v39 v44 v45 v46 v47 (ix2 (row pp n) c) = Poly.hid1 w X mk n c := by
  unfold hid1T Poly.hid1
  rw [Tile.normT_apply, hg, hb, hm, hv]
  congr 1
  refine (Tile.lin_apply dot_S2048x256_S256x128_S2048x128_1_0_0_1_n_n rfl rfl rfl rfl rfl rfl _ _ _ (row pp n) c).trans ?_
  refine Finset.sum_congr rfl fun j _ => ?_
  rw [hW]
  exact congrArg (· * v39 (ix2 c j)) (hcat n j)

theorem hid2T_apply (h1 : FVec Ideal S2048x128 .f32) (v63 : Vec Ideal S128x128 .f32) (v68 v69 v70 v71 : Vec Ideal S128 .f32)
    (col : FVec Ideal S2048x1 .f32)
    (hW : ∀ c j, w.W2 c j = v63 (ix2 c j)) (hg : ∀ c, w.g2 c = v68 (ix1 c)) (hb : ∀ c, w.b2 c = v69 (ix1 c))
    (hm : ∀ c, w.m2 c = v70 (ix1 c)) (hv : ∀ c, w.v2 c = v71 (ix1 c))
    (hh : ∀ n j, h1 (ix2 (row pp n) j) = Poly.hid1 w X mk n j)
    (hcol : ∀ n, col (ix2 (row pp n) (0 : Fin 1)) = mk n) (n : Fin 32) (c : Fin 128) :
    hid2T h1 v63 v68 v69 v70 v71 col (ix2 (row pp n) c) = Poly.hid2 w X mk n c := by
  unfold hid2T Poly.hid2
  rw [mulf_apply, Tile.normT_apply, Tile.col_apply, hcol, hg, hb, hm, hv]
  congr 2
  refine (Tile.lin_apply dot_S2048x128_S128x128_S2048x128_1_0_0_1_n_n rfl rfl rfl rfl rfl rfl _ _ _ (row pp n) c).trans ?_
  refine Finset.sum_congr rfl fun j _ => ?_
  rw [hW]
  exact congrArg (· * v63 (ix2 c j)) (hh n j)

theorem out1T_apply (p : FVec Ideal S64x128 .f32) (v91 : Vec Ideal S128x128 .f32) (v96 : Vec Ideal S128 .f32)
    (hW : ∀ c j, w.Wo1 c j = v91 (ix2 c j)) (hb : ∀ c, w.bo1 c = v96 (ix1 c))
    (hp : ∀ j, p (ix2 pp j) = Poly.pool2 w X mk j) (c : Fin 128) :
    out1T p v91 v96 (ix2 pp c) = Poly.out1 w X mk c := by
  unfold out1T Poly.out1
  rw [maximumf_apply, addf_apply, Tile.row_apply, broadcast_apply, hb]
  refine congrArg (fun t => max (t + v96 (ix1 c)) Poly.zero) ?_
  refine (Tile.lin_apply dot_S64x128_S128x128_S64x128_1_0_0_1_n_n rfl rfl rfl rfl rfl rfl _ _ _ pp c).trans ?_
  refine Finset.sum_congr rfl fun j _ => ?_
  rw [hW]
  exact congrArg (· * v91 (ix2 c j)) (hp j)

theorem out2T_apply (o1 : FVec Ideal S64x128 .f32) (v102 : Vec Ideal S256x128 .f32) (v107 : Vec Ideal S256 .f32)
    (hW : ∀ o j, w.Wo2 o j = v102 (ix2 o j)) (hb : ∀ o, w.bo2 o = v107 (ix1 o))
    (ho : ∀ j, o1 (ix2 pp j) = Poly.out1 w X mk j) (o : Fin 256) :
    out2T o1 v102 v107 (ix2 pp o) = (∑ j : Fin 128, Poly.out1 w X mk j * w.Wo2 o j) + w.bo2 o := by
  unfold out2T
  rw [addf_apply, Tile.row_apply, hb]
  refine congrArg (fun t => t + v107 (ix1 o)) ?_
  refine (Tile.lin_apply dot_S64x128_S128x256_S64x256_1_0_0_1_n_n rfl rfl rfl rfl rfl rfl _ _ _ pp o).trans ?_
  refine Finset.sum_congr rfl fun j _ => ?_
  rw [hW]
  exact congrArg (· * v102 (ix2 o j)) (ho j)

theorem validT_apply (v111 : Vec Ideal S1x64x32x1 .f32)
    (hmk : ∀ n, v111 (ix4 (0 : Fin 1) pp n (0 : Fin 1)) = mk n) :
    validT v111 (ix2 pp (0 : Fin 1)) = Poly.valid mk := by
  unfold validT Poly.valid
  refine (Tile.maxMid_apply _ _ _ _ _ pp (0 : Fin 1)).trans ?_
  refine congrArg (fun f => (Finset.univ : Finset (Fin 32)).fold max Poly.ninf f) (funext fun n => ?_)
  exact (shapeCast_1abc_abc_apply _ _ pp n (0 : Fin 1)).trans (hmk n)

end

/-! ## The block the body stores -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Entry (0, pp, o) of the block the body leaves in the output window's buffer is the encoding, at channel o, of
    polyline pp of the blocks it loaded. -/
theorem out_apply (x0 : Vec Ideal S1x64x32x9 .f32) (x1 : Vec Ideal S1x64x32x1 .f32) (x2 : Vec Ideal S128x9 .f32)
    (x3 x4 x5 x6 : Vec Ideal S128 .f32) (x7 : Vec Ideal S128x256 .f32) (x8 x9 x10 x11 : Vec Ideal S128 .f32)
    (x12 : Vec Ideal S128x128 .f32) (x13 x14 x15 x16 : Vec Ideal S128 .f32) (x17 : Vec Ideal S128x128 .f32)
    (x18 : Vec Ideal S128 .f32) (x19 : Vec Ideal S256x128 .f32) (x20 : Vec Ideal S256 .f32) (pp : Fin 64) (o : Fin 256) :
    out0_21 x0 x1 x2 x3 x4 x5 x6 x7 x8 x9 x10 x11 x12 x13 x14 x15 x16 x17 x18 x19 x20 (ix3 (0 : Fin 1) pp o)
      = Poly.out (Poly.Weights.of x2 x3 x4 x5 x6 x7 x8 x9 x10 x11 x12 x13 x14 x15 x16 x17 x18 x19 x20)
          (fun n k => x0 (ix4 (0 : Fin 1) pp n k)) (fun n => x1 (ix4 (0 : Fin 1) pp n (0 : Fin 1))) o := by
  unfold out0_21
  rw [View.canon_unit_zero hz3]
  simp only [View.ld_unit_zero (S := S1x64x32x9) hz4, View.ld_unit_zero (S := S1x64x32x1) hz4,
    View.ld_unit_zero (S := S128x9) hz2, View.ld_unit_zero (S := S128) hz1, View.ld_unit_zero (S := S128x256) hz2,
    View.ld_unit_zero (S := S128x128) hz2, View.ld_unit_zero (S := S256x128) hz2, View.ld_unit_zero (S := S256) hz1]
  rw [body_eq]
  refine (shapeCast_ab_1ab_apply _ _ (0 : Fin 1) pp o).trans ?_
  rw [mulf_apply, Tile.col_apply]
  unfold Poly.out
  rw [validT_apply (fun n => x1 (ix4 (0 : Fin 1) pp n (0 : Fin 1))) pp x1 (fun _ => rfl)]
  refine congrArg (· * Poly.valid fun n => x1 (ix4 (0 : Fin 1) pp n (0 : Fin 1))) ?_
  refine out2T_apply _ _ _ pp _ x19 x20 (fun _ _ => rfl) (fun _ => rfl) (fun j => ?_) o
  refine out1T_apply _ _ _ pp _ x17 x18 (fun _ _ => rfl) (fun _ => rfl) (fun j => ?_) j
  unfold Poly.pool2
  refine poolT_of _ pp j _ fun n => ?_
  refine hid2T_apply _ _ _ pp _ x12 x13 x14 x15 x16 _ (fun _ _ => rfl) (fun _ => rfl) (fun _ => rfl) (fun _ => rfl)
    (fun _ => rfl) (fun n j => ?_) (fun n => mask_apply x1 pp n) n j
  refine hid1T_apply _ _ _ pp _ x7 x8 x9 x10 x11 (fun _ _ => rfl) (fun _ => rfl) (fun _ => rfl) (fun _ => rfl)
    (fun _ => rfl) (fun n j => ?_) n j
  exact pay3_apply _ x0 x2 x3 x4 x5 x6 x1 (fun _ _ => rfl) (fun _ => rfl) (fun _ => rfl) (fun _ => rfl) (fun _ => rfl) pp n j

end Cert.KernelIdeal.TileValue

end
-- ==== Proof.ArrayValue.lean ====
/-
  The kernel's result array as one function of the argument arrays.

  The grid has 16 x 12 points; point (i, j) loads polylines 64 j .. 64 j + 63 of batch i (their coordinates and their marks)
  and every weight array whole, and writes the 64 x 256 block of the result at (i, 64 j, 0). The marks it loads are the
  mask's bits read as the numbers 0 and 1 by the two host operations before the call. So what point (i, j) writes is the
  block of Poly.G of the argument arrays at that place; the blocks cover the result array; and the array after the run is
  Poly.G of the arguments.
-/
import proofs.«162664_j18511309045816_2_alg».proof.Proof.Gen.KernelIdeal.Value
import proofs.«162664_j18511309045816_2_alg».proof.Proof.TileBody
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.TileValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps, decided over the grid -/

/-- The three moving windows (polylines, marks, result) sit at block (i, j) of their leading two axes and at block 0 of the
    others, and (i, j) ranges over 16 x 12. -/
theorem idx_moving : ∀ t : Fin cfg0.N,
    win0_0.index t (0 : Fin 4) = win0_21.index t (0 : Fin 3) ∧ win0_0.index t (1 : Fin 4) = win0_21.index t (1 : Fin 3)
    ∧ win0_0.index t (2 : Fin 4) = 0 ∧ win0_0.index t (3 : Fin 4) = 0
    ∧ win0_1.index t (0 : Fin 4) = win0_21.index t (0 : Fin 3) ∧ win0_1.index t (1 : Fin 4) = win0_21.index t (1 : Fin 3)
    ∧ win0_1.index t (2 : Fin 4) = 0 ∧ win0_1.index t (3 : Fin 4) = 0
    ∧ win0_21.index t (0 : Fin 3) < 16 ∧ win0_21.index t (1 : Fin 3) < 12 ∧ win0_21.index t (2 : Fin 3) = 0 :=
  (by decide +kernel : ∀ t : Fin grid0.N, _)

/-- Every block of the result is some point's. -/
theorem idx_onto : ∀ (q0 : Fin 16) (q1 : Fin 12), ∃ t : Fin cfg0.N, win0_21.index t = ![q0.val, q1.val, 0] :=
  (by decide +kernel : ∀ (q0 : Fin 16) (q1 : Fin 12), ∃ t : Fin grid0.N, win0_21.index t = ![q0.val, q1.val, 0])

/-! ## The weight windows: each block is the whole array -/

theorem zidx2 : ∀ t : Fin cfg0.N, win0_2.index t (0 : Fin 2) = 0 ∧ win0_2.index t (1 : Fin 2) = 0 :=
  (by decide +kernel : ∀ t : Fin grid0.N, _)

theorem iblk2_eq (c : Dev nD) (t : Fin cfg0.N) :
    (iblk m c 2 t : Vec Ideal S128x9 .f32) = m ((c : Thread nD τ).loc main_arg2) := by
  funext y
  show V m c main_arg2 (((cfg0.win 2).blk t).view.emb y) = _
  rw [V_main_arg2]
  refine congrArg _ (funext fun a => Fin.ext ?_)
  obtain ⟨z0, z1⟩ := zidx2 t
  match a with
    | ⟨0, _⟩ => show win0_2.index t (0 : Fin 2) * 128 + 1 * (y 0).val = (y 0).val; omega
    | ⟨1, _⟩ => show win0_2.index t (1 : Fin 2) * 9 + 1 * (y 1).val = (y 1).val; omega

theorem zidx3 : ∀ t : Fin cfg0.N, win0_3.index t (0 : Fin 1) = 0 :=
  (by decide +kernel : ∀ t : Fin grid0.N, _)

theorem iblk3_eq (c : Dev nD) (t : Fin cfg0.N) :
    (iblk m c 3 t : Vec Ideal S128 .f32) = m ((c : Thread nD τ).loc main_arg3) := by
  funext y
  show V m c main_arg3 (((cfg0.win 3).blk t).view.emb y) = _
  rw [V_main_arg3]
  refine congrArg _ (funext fun a => Fin.ext ?_)
  have z0 := zidx3 t
  match a with
    | ⟨0, _⟩ => show win0_3.index t (0 : Fin 1) * 128 + 1 * (y 0).val = (y 0).val; omega

theorem zidx4 : ∀ t : Fin cfg0.N, win0_4.index t (0 : Fin 1) = 0 :=
  (by decide +kernel : ∀ t : Fin grid0.N, _)

theorem iblk4_eq (c : Dev nD) (t : Fin cfg0.N) :
    (iblk m c 4 t : Vec Ideal S128 .f32) = m ((c : Thread nD τ).loc main_arg4) := by
  funext y
  show V m c main_arg4 (((cfg0.win 4).blk t).view.emb y) = _
  rw [V_main_arg4]
  refine congrArg _ (funext fun a => Fin.ext ?_)
  have z0 := zidx4 t
  match a with
    | ⟨0, _⟩ => show win0_4.index t (0 : Fin 1) * 128 + 1 * (y 0).val = (y 0).val; omega

theorem zidx5 : ∀ t : Fin cfg0.N, win0_5.index t (0 : Fin 1) = 0 :=
  (by decide +kernel : ∀ t : Fin grid0.N, _)

theorem iblk5_eq (c : Dev nD) (t : Fin cfg0.N) :
    (iblk m c 5 t : Vec Ideal S128 .f32) = m ((c : Thread nD τ).loc main_arg5) := by
  funext y
  show V m c main_arg5 (((cfg0.win 5).blk t).view.emb y) = _
  rw [V_main_arg5]
  refine congrArg _ (funext fun a => Fin.ext ?_)
  have z0 := zidx5 t
  match a with
    | ⟨0, _⟩ => show win0_5.index t (0 : Fin 1) * 128 + 1 * (y 0).val = (y 0).val; omega

theorem zidx6 : ∀ t : Fin cfg0.N, win0_6.index t (0 : Fin 1) = 0 :=
  (by decide +kernel : ∀ t : Fin grid0.N, _)

theorem iblk6_eq (c : Dev nD) (t : Fin cfg0.N) :
    (iblk m c 6 t : Vec Ideal S128 .f32) = m ((c : Thread nD τ).loc main_arg6) := by
  funext y
  show V m c main_arg6 (((cfg0.win 6).blk t).view.emb y) = _
  rw [V_main_arg6]
  refine congrArg _ (funext fun a => Fin.ext ?_)
  have z0 := zidx6 t
  match a with
    | ⟨0, _⟩ => show win0_6.index t (0 : Fin 1) * 128 + 1 * (y 0).val = (y 0).val; omega

theorem zidx7 : ∀ t : Fin cfg0.N, win0_7.index t (0 : Fin 2) = 0 ∧ win0_7.index t (1 : Fin 2) = 0 :=
  (by decide +kernel : ∀ t : Fin grid0.N, _)

theorem iblk7_eq (c : Dev nD) (t : Fin cfg0.N) :
    (iblk m c 7 t : Vec Ideal S128x256 .f32) = m ((c : Thread nD τ).loc main_arg7) := by
  funext y
  show V m c main_arg7 (((cfg0.win 7).blk t).view.emb y) = _
  rw [V_main_arg7]
  refine congrArg _ (funext fun a => Fin.ext ?_)
  obtain ⟨z0, z1⟩ := zidx7 t
  match a with
    | ⟨0, _⟩ => show win0_7.index t (0 : Fin 2) * 128 + 1 * (y 0).val = (y 0).val; omega
    | ⟨1, _⟩ => show win0_7.index t (1 : Fin 2) * 256 + 1 * (y 1).val = (y 1).val; omega

theorem zidx8 : ∀ t : Fin cfg0.N, win0_8.index t (0 : Fin 1) = 0 :=
  (by decide +kernel : ∀ t : Fin grid0.N, _)

theorem iblk8_eq (c : Dev nD) (t : Fin cfg0.N) :
    (iblk m c 8 t : Vec Ideal S128 .f32) = m ((c : Thread nD τ).loc main_arg8) := by
  funext y
  show V m c main_arg8 (((cfg0.win 8).blk t).view.emb y) = _
  rw [V_main_arg8]
  refine congrArg _ (funext fun a => Fin.ext ?_)
  have z0 := zidx8 t
  match a with
    | ⟨0, _⟩ => show win0_8.index t (0 : Fin 1) * 128 + 1 * (y 0).val = (y 0).val; omega

theorem zidx9 : ∀ t : Fin cfg0.N, win0_9.index t (0 : Fin 1) = 0 :=
  (by decide +kernel : ∀ t : Fin grid0.N, _)

theorem iblk9_eq (c : Dev nD) (t : Fin cfg0.N) :
    (iblk m c 9 t : Vec Ideal S128 .f32) = m ((c : Thread nD τ).loc main_arg9) := by
  funext y
  show V m c main_arg9 (((cfg0.win 9).blk t).view.emb y) = _
  rw [V_main_arg9]
  refine congrArg _ (funext fun a => Fin.ext ?_)
  have z0 := zidx9 t
  match a with
    | ⟨0, _⟩ => show win0_9.index t (0 : Fin 1) * 128 + 1 * (y 0).val = (y 0).val; omega

theorem zidx10 : ∀ t : Fin cfg0.N, win0_10.index t (0 : Fin 1) = 0 :=
  (by decide +kernel : ∀ t : Fin grid0.N, _)

theorem iblk10_eq (c : Dev nD) (t : Fin cfg0.N) :
    (iblk m c 10 t : Vec Ideal S128 .f32) = m ((c : Thread nD τ).loc main_arg10) := by
  funext y
  show V m c main_arg10 (((cfg0.win 10).blk t).view.emb y) = _
  rw [V_main_arg10]
  refine congrArg _ (funext fun a => Fin.ext ?_)
  have z0 := zidx10 t
  match a with
    | ⟨0, _⟩ => show win0_10.index t (0 : Fin 1) * 128 + 1 * (y 0).val = (y 0).val; omega

theorem zidx11 : ∀ t : Fin cfg0.N, win0_11.index t (0 : Fin 1) = 0 :=
  (by decide +kernel : ∀ t : Fin grid0.N, _)

theorem iblk11_eq (c : Dev nD) (t : Fin cfg0.N) :
    (iblk m c 11 t : Vec Ideal S128 .f32) = m ((c : Thread nD τ).loc main_arg11) := by
  funext y
  show V m c main_arg11 (((cfg0.win 11).blk t).view.emb y) = _
  rw [V_main_arg11]
  refine congrArg _ (funext fun a => Fin.ext ?_)
  have z0 := zidx11 t
  match a with
    | ⟨0, _⟩ => show win0_11.index t (0 : Fin 1) * 128 + 1 * (y 0).val = (y 0).val; omega

theorem zidx12 : ∀ t : Fin cfg0.N, win0_12.index t (0 : Fin 2) = 0 ∧ win0_12.index t (1 : Fin 2) = 0 :=
  (by decide +kernel : ∀ t : Fin grid0.N, _)

theorem iblk12_eq (c : Dev nD) (t : Fin cfg0.N) :
    (iblk m c 12 t : Vec Ideal S128x128 .f32) = m ((c : Thread nD τ).loc main_arg12) := by
  funext y
  show V m c main_arg12 (((cfg0.win 12).blk t).view.emb y) = _
  rw [V_main_arg12]
  refine congrArg _ (funext fun a => Fin.ext ?_)
  obtain ⟨z0, z1⟩ := zidx12 t
  match a with
    | ⟨0, _⟩ => show win0_12.index t (0 : Fin 2) * 128 + 1 * (y 0).val = (y 0).val; omega
    | ⟨1, _⟩ => show win0_12.index t (1 : Fin 2) * 128 + 1 * (y 1).val = (y 1).val; omega

theorem zidx13 : ∀ t : Fin cfg0.N, win0_13.index t (0 : Fin 1) = 0 :=
  (by decide +kernel : ∀ t : Fin grid0.N, _)

theorem iblk13_eq (c : Dev nD) (t : Fin cfg0.N) :
    (iblk m c 13 t : Vec Ideal S128 .f32) = m ((c : Thread nD τ).loc main_arg13) := by
  funext y
  show V m c main_arg13 (((cfg0.win 13).blk t).view.emb y) = _
  rw [V_main_arg13]
  refine congrArg _ (funext fun a => Fin.ext ?_)
  have z0 := zidx13 t
  match a with
    | ⟨0, _⟩ => show win0_13.index t (0 : Fin 1) * 128 + 1 * (y 0).val = (y 0).val; omega

theorem zidx14 : ∀ t : Fin cfg0.N, win0_14.index t (0 : Fin 1) = 0 :=
  (by decide +kernel : ∀ t : Fin grid0.N, _)

theorem iblk14_eq (c : Dev nD) (t : Fin cfg0.N) :
    (iblk m c 14 t : Vec Ideal S128 .f32) = m ((c : Thread nD τ).loc main_arg14) := by
  funext y
  show V m c main_arg14 (((cfg0.win 14).blk t).view.emb y) = _
  rw [V_main_arg14]
  refine congrArg _ (funext fun a => Fin.ext ?_)
  have z0 := zidx14 t
  match a with
    | ⟨0, _⟩ => show win0_14.index t (0 : Fin 1) * 128 + 1 * (y 0).val = (y 0).val; omega

theorem zidx15 : ∀ t : Fin cfg0.N, win0_15.index t (0 : Fin 1) = 0 :=
  (by decide +kernel : ∀ t : Fin grid0.N, _)

theorem iblk15_eq (c : Dev nD) (t : Fin cfg0.N) :
    (iblk m c 15 t : Vec Ideal S128 .f32) = m ((c : Thread nD τ).loc main_arg15) := by
  funext y
  show V m c main_arg15 (((cfg0.win 15).blk t).view.emb y) = _
  rw [V_main_arg15]
  refine congrArg _ (funext fun a => Fin.ext ?_)
  have z0 := zidx15 t
  match a with
    | ⟨0, _⟩ => show win0_15.index t (0 : Fin 1) * 128 + 1 * (y 0).val = (y 0).val; omega

theorem zidx16 : ∀ t : Fin cfg0.N, win0_16.index t (0 : Fin 1) = 0 :=
  (by decide +kernel : ∀ t : Fin grid0.N, _)

theorem iblk16_eq (c : Dev nD) (t : Fin cfg0.N) :
    (iblk m c 16 t : Vec Ideal S128 .f32) = m ((c : Thread nD τ).loc main_arg16) := by
  funext y
  show V m c main_arg16 (((cfg0.win 16).blk t).view.emb y) = _
  rw [V_main_arg16]
  refine congrArg _ (funext fun a => Fin.ext ?_)
  have z0 := zidx16 t
  match a with
    | ⟨0, _⟩ => show win0_16.index t (0 : Fin 1) * 128 + 1 * (y 0).val = (y 0).val; omega

theorem zidx17 : ∀ t : Fin cfg0.N, win0_17.index t (0 : Fin 2) = 0 ∧ win0_17.index t (1 : Fin 2) = 0 :=
  (by decide +kernel : ∀ t : Fin grid0.N, _)

theorem iblk17_eq (c : Dev nD) (t : Fin cfg0.N) :
    (iblk m c 17 t : Vec Ideal S128x128 .f32) = m ((c : Thread nD τ).loc main_arg17) := by
  funext y
  show V m c main_arg17 (((cfg0.win 17).blk t).view.emb y) = _
  rw [V_main_arg17]
  refine congrArg _ (funext fun a => Fin.ext ?_)
  obtain ⟨z0, z1⟩ := zidx17 t
  match a with
    | ⟨0, _⟩ => show win0_17.index t (0 : Fin 2) * 128 + 1 * (y 0).val = (y 0).val; omega
    | ⟨1, _⟩ => show win0_17.index t (1 : Fin 2) * 128 + 1 * (y 1).val = (y 1).val; omega

theorem zidx18 : ∀ t : Fin cfg0.N, win0_18.index t (0 : Fin 1) = 0 :=
  (by decide +kernel : ∀ t : Fin grid0.N, _)

theorem iblk18_eq (c : Dev nD) (t : Fin cfg0.N) :
    (iblk m c 18 t : Vec Ideal S128 .f32) = m ((c : Thread nD τ).loc main_arg18) := by
  funext y
  show V m c main_arg18 (((cfg0.win 18).blk t).view.emb y) = _
  rw [V_main_arg18]
  refine congrArg _ (funext fun a => Fin.ext ?_)
  have z0 := zidx18 t
  match a with
    | ⟨0, _⟩ => show win0_18.index t (0 : Fin 1) * 128 + 1 * (y 0).val = (y 0).val; omega

theorem zidx19 : ∀ t : Fin cfg0.N, win0_19.index t (0 : Fin 2) = 0 ∧ win0_19.index t (1 : Fin 2) = 0 :=
  (by decide +kernel : ∀ t : Fin grid0.N, _)

theorem iblk19_eq (c : Dev nD) (t : Fin cfg0.N) :
    (iblk m c 19 t : Vec Ideal S256x128 .f32) = m ((c : Thread nD τ).loc main_arg19) := by
  funext y
  show V m c main_arg19 (((cfg0.win 19).blk t).view.emb y) = _
  rw [V_main_arg19]
  refine congrArg _ (funext fun a => Fin.ext ?_)
  obtain ⟨z0, z1⟩ := zidx19 t
  match a with
    | ⟨0, _⟩ => show win0_19.index t (0 : Fin 2) * 256 + 1 * (y 0).val = (y 0).val; omega
    | ⟨1, _⟩ => show win0_19.index t (1 : Fin 2) * 128 + 1 * (y 1).val = (y 1).val; omega

theorem zidx20 : ∀ t : Fin cfg0.N, win0_20.index t (0 : Fin 1) = 0 :=
  (by decide +kernel : ∀ t : Fin grid0.N, _)

theorem iblk20_eq (c : Dev nD) (t : Fin cfg0.N) :
    (iblk m c 20 t : Vec Ideal S256 .f32) = m ((c : Thread nD τ).loc main_arg20) := by
  funext y
  show V m c main_arg20 (((cfg0.win 20).blk t).view.emb y) = _
  rw [V_main_arg20]
  refine congrArg _ (funext fun a => Fin.ext ?_)
  have z0 := zidx20 t
  match a with
    | ⟨0, _⟩ => show win0_20.index t (0 : Fin 1) * 256 + 1 * (y 0).val = (y 0).val; omega

/-! ## The polylines' block and the marks' block -/

/-- Entry (0, pp, n, k) of the polylines' block at a point is entry (i, 64 j + pp, n, k) of the array. -/
theorem iblk0_apply (c : Dev nD) (t : Fin cfg0.N) (pp : Fin 64) (n : Fin 32) (k : Fin 9) (b : Fin 16) (p : Fin 768)
    (hb : b.val = win0_21.index t (0 : Fin 3)) (hp : p.val = win0_21.index t (1 : Fin 3) * 64 + pp.val) :
    (iblk m c 0 t : Vec Ideal S1x64x32x9 .f32) (ix4 (0 : Fin 1) pp n k) = m ((c : Thread nD τ).loc main_arg0) (ix4 b p n k) := by
  show V m c main_arg0 (((cfg0.win 0).blk t).view.emb (ix4 (0 : Fin 1) pp n k)) = _
  rw [V_main_arg0]
  refine congrArg _ (funext fun a => Fin.ext ?_)
  obtain ⟨e0, e1, e2, e3, -⟩ := idx_moving t
  match a with
  | ⟨0, _⟩ => show win0_0.index t (0 : Fin 4) * 1 + 1 * 0 = b.val; omega
  | ⟨1, _⟩ => show win0_0.index t (1 : Fin 4) * 64 + 1 * pp.val = p.val; omega
  | ⟨2, _⟩ => show win0_0.index t (2 : Fin 4) * 32 + 1 * n.val = n.val; omega
  | ⟨3, _⟩ => show win0_0.index t (3 : Fin 4) * 9 + 1 * k.val = k.val; omega

/-- The array of marks as the region finds it: the mask's bits read unsigned as numbers, given a trailing unit axis. -/
theorem marks_eq (c : Dev nD) :
    (V m c main_v1 : S16x768x32x1.Idx → EReal)
      = broadcastInDim S16x768x32x1 ![0, 1, 2] bcast_S16x768x32_S16x768x32x1_0_1_2
          (uitofp (F := Ideal) .f32 (m ((c : Thread nD τ).loc main_arg1))) := by
  dsimp only [Gen.V, Gen.hostOps0]
  after_results

/-- Entry (0, pp, n, 0) of the marks' block at a point is the bit of point n of polyline (i, 64 j + pp), as a number. -/
theorem iblk1_apply (c : Dev nD) (t : Fin cfg0.N) (pp : Fin 64) (n : Fin 32) (b : Fin 16) (p : Fin 768)
    (hb : b.val = win0_21.index t (0 : Fin 3)) (hp : p.val = win0_21.index t (1 : Fin 3) * 64 + pp.val) :
    (iblk m c 1 t : Vec Ideal S1x64x32x1 .f32) (ix4 (0 : Fin 1) pp n (0 : Fin 1))
      = Poly.bit (m ((c : Thread nD τ).loc main_arg1) (ix3 b p n)) := by
  show (V m c main_v1 : S16x768x32x1.Idx → EReal) (((cfg0.win 1).blk t).view.emb (ix4 (0 : Fin 1) pp n (0 : Fin 1))) = _
  rw [marks_eq]
  obtain ⟨-, -, -, -, e0, e1, e2, e3, -⟩ := idx_moving t
  refine (broadcastInDim_apply _ bcast_S16x768x32_S16x768x32x1_0_1_2 _ _ (ix3 b p n) fun a => ?_).trans rfl
  match a with
  | ⟨0, _⟩ =>
    show b.val = if (16 : Nat) = 1 then 0 else win0_1.index t (0 : Fin 4) * 1 + 1 * 0
    rw [if_neg (by decide)]; omega
  | ⟨1, _⟩ =>
    show p.val = if (768 : Nat) = 1 then 0 else win0_1.index t (1 : Fin 4) * 64 + 1 * pp.val
    rw [if_neg (by decide)]; omega
  | ⟨2, _⟩ =>
    show n.val = if (32 : Nat) = 1 then 0 else win0_1.index t (2 : Fin 4) * 32 + 1 * n.val
    rw [if_neg (by decide)]; omega

/-! ## What a point writes, the cover, the array -/

/-- The result array as the encoder of the argument arrays. -/
def GV (c : Dev nD) : S16x768x256.Idx → EReal :=
  Poly.G (m ((c : Thread nD τ).loc main_arg0)) (m ((c : Thread nD τ).loc main_arg1))
    (Poly.Weights.of
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))
      (m ((c : Thread nD τ).loc main_arg18))
      (m ((c : Thread nD τ).loc main_arg19))
      (m ((c : Thread nD τ).loc main_arg20)))

/-- What point t writes back is its block of that array. -/
theorem flushed_eq (c : Dev nD) (t : Fin cfg0.N) :
    (dats m 0 c).flushed 21 t = ((cfg0.win 21).blk t).view.read (Elt Ideal) (GV m c) := by
  rw [Value.flushed21]
  obtain ⟨-, -, -, -, -, -, -, -, e0, e1, e2⟩ := idx_moving t
  have key : ∀ (pp : Fin 64) (o : Fin 256),
      out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 (0 : Fin 1) pp o)
        = GV m c (((cfg0.win 21).blk t).view.emb (ix3 (0 : Fin 1) pp o)) := by
    intro pp o
    have hemb : ((cfg0.win 21).blk t).view.emb (ix3 (0 : Fin 1) pp o)
        = ix3 (⟨win0_21.index t (0 : Fin 3), e0⟩ : Fin 16)
            (⟨win0_21.index t (1 : Fin 3) * 64 + pp.val, by have := pp.isLt; omega⟩ : Fin 768) o := by
      funext a; apply Fin.ext
      match a with
      | ⟨0, _⟩ => show win0_21.index t (0 : Fin 3) * 1 + 1 * 0 = win0_21.index t (0 : Fin 3); omega
      | ⟨1, _⟩ => show win0_21.index t (1 : Fin 3) * 64 + 1 * pp.val = win0_21.index t (1 : Fin 3) * 64 + pp.val; omega
      | ⟨2, _⟩ => show win0_21.index t (2 : Fin 3) * 256 + 1 * o.val = o.val; omega
    rw [hemb]
    unfold GV
    rw [Poly.G_apply]
    refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) pp o).trans ?_
    rw [iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t, iblk20_eq m c t]
    refine congrArg₂ (fun X mk => Poly.out _ X mk o) (funext fun n => funext fun k => ?_) (funext fun n => ?_)
    · exact iblk0_apply m c t pp n k _ _ rfl rfl
    · exact iblk1_apply m c t pp n _ _ rfl rfl
  funext y
  obtain ⟨pp, o, rfl⟩ : ∃ (pp : Fin 64) (o : Fin 256), y = ix3 (0 : Fin 1) pp o :=
    ⟨y 1, y 2, funext fun a => by
      match a with
      | ⟨0, _⟩ => exact Subsingleton.elim (α := Fin 1) _ _
      | ⟨1, _⟩ => rfl
      | ⟨2, _⟩ => rfl⟩
  exact key pp o

/-- An index of the result lies in point t's block iff each coordinate is in the block's range on its axis. -/
theorem mem_blk (t : Fin cfg0.N) (i : S16x768x256.Idx) :
    i ∈ ((cfg0.win 21).blk t).view.set ↔ ∀ a : Fin 3, win0_21.index t a * S1x64x256.size a ≤ (i a).val
      ∧ (i a).val < win0_21.index t a * S1x64x256.size a + S1x64x256.size a := by
  show i ∈ ((View.whole main_v2).slice (win0_21.rect t)).set ↔ _
  rw [View.set_slice_whole, Rect.mem_set_unit]
  exact Iff.rfl

/-- Every index of the result is in the block of the point at (its batch, its polyline's tile). -/
theorem cover (i : S16x768x256.Idx) :
    ∃ t : Fin cfg0.N, (cfg0.win 21).flush t = true ∧ i ∈ ((cfg0.win 21).blk t).view.set := by
  have hi0 : (i 0).val < 16 := (i 0).isLt
  have hi1 : (i 1).val < 768 := (i 1).isLt
  have hi2 : (i 2).val < 256 := (i 2).isLt
  obtain ⟨t, ht⟩ := idx_onto ⟨(i 0).val, hi0⟩ ⟨(i 1).val / 64, by omega⟩
  have q0 : win0_21.index t (0 : Fin 3) = (i 0).val := congrFun ht 0
  have q1 : win0_21.index t (1 : Fin 3) = (i 1).val / 64 := congrFun ht 1
  have q2 : win0_21.index t (2 : Fin 3) = 0 := congrFun ht 2
  refine ⟨t, flush0_21 t, ?_⟩
  rw [mem_blk]
  intro a
  match a with
  | ⟨0, _⟩ =>
    show win0_21.index t (0 : Fin 3) * 1 ≤ (i 0).val ∧ (i 0).val < win0_21.index t (0 : Fin 3) * 1 + 1; omega
  | ⟨1, _⟩ =>
    show win0_21.index t (1 : Fin 3) * 64 ≤ (i 1).val ∧ (i 1).val < win0_21.index t (1 : Fin 3) * 64 + 64; omega
  | ⟨2, _⟩ =>
    show win0_21.index t (2 : Fin 3) * 256 ≤ (i 2).val ∧ (i 2).val < win0_21.index t (2 : Fin 3) * 256 + 256; omega

/-- The result array after the run is the encoder of the argument arrays. -/
theorem final (c : Dev nD) : (dats m 0 c).arrAt 21 cfg0.N = GV m c :=
  (dats m 0 c).arrAt_eq_of_cover 21 (GV m c) (fun t _ => flushed_eq m c t) cover

/-- The kernel's run: it ends with the result array at the encoder of the arguments, the arguments unchanged. -/
theorem run : θ_run defs (onTc (τ := τ) (main (F := Ideal))) ⟨m, fun _ => 0, ρ⟩ fun r => ∀ c : Dev nD,
      r.2.mem ((c : Thread nD τ).loc main_v2) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks (F := Ideal) m ρ)

end Cert.KernelIdeal.ArrayValue

end
-- ==== Proof.RefRead.lean ====
/-
  The reference program, one polyline at a time.

  Every stage of the reference is an array over (batch, polyline, point, channel) or (batch, polyline, channel). Read at
  a literal coordinate (b, p, n, c), each stage depends only on polyline (b, p): on its 32 points X n k = x0 (b, p, n, k)
  and on its 32 marks m n = the bit x1 (b, p, n) read as 0 or 1. The stages are, in order: the first layer (a sum over the
  9 coordinates, normalised, rectified, kept where the point's bit is set); the maximum of it over the 32 points; the
  point's 128 features beside the 128 pooled ones; the second and third layers (sums over 256 and over 128 terms), the
  third again kept where the bit is set; the maximum over the points; a rectified affine layer; an affine layer kept where
  the disjunction of the 32 bits is set. Keeping a value where a bit is set and writing zero elsewhere is multiplying by
  the bit read as a number, and the disjunction of the bits read as a number is the maximum of the marks, so each stage is
  the matching function of the specification, and the last one is its whole-array function.

  A weight vector broadcast along the other axes reads, at (b, p, n, c), its entry c; a maximum along the point axis at
  (b, p, c) is the fold of max from minus infinity over the entries (b, p, n, c), n = 0 … 31; two arrays joined along the
  channel axis read, at channel j, the first at j when j < 128 and the second at j - 128 otherwise.
-/
import proofs.«162664_j18511309045816_2_alg».proof.Proof.ReadP
import proofs.«162664_j18511309045816_2_alg».proof.Proof.Poly
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## Indices -/

/-- Two indices of rank 1 … 4 with the same coordinates are equal; at literal coordinates each one computes. -/
local macro "idx1" : tactic => `(tactic| (funext a; refine Fin.ext ?_; match a with | ⟨0, _⟩ => rfl))
local macro "idx2" : tactic => `(tactic| (funext a; refine Fin.ext ?_; match a with | ⟨0, _⟩ => rfl | ⟨1, _⟩ => rfl))
local macro "idx3" : tactic =>
  `(tactic| (funext a; refine Fin.ext ?_; match a with | ⟨0, _⟩ => rfl | ⟨1, _⟩ => rfl | ⟨2, _⟩ => rfl))
local macro "idx4" : tactic =>
  `(tactic| (funext a; refine Fin.ext ?_; match a with | ⟨0, _⟩ => rfl | ⟨1, _⟩ => rfl | ⟨2, _⟩ => rfl | ⟨3, _⟩ => rfl))

/-- The point axis of a (batch, polyline, point, channel) array is one axis dropped. -/
theorem red4 : S16x768x32x128.Reduces [2] S16x768x128 := by decide
/-- The point axis of the (batch, polyline, point) bits likewise. -/
theorem red3 : S16x768x32.Reduces [2] S16x768 := by decide

/-- Putting point n back into (b, p, c) gives (b, p, n, c). -/
theorem lift4 (b : Fin 16) (p : Fin 768) (n : Fin 32) (c : Fin 128) : red4.lift (ix3 b p c) n = ix4 b p n c := by idx4
/-- Putting point n back into (b, p) gives (b, p, n). -/
theorem lift3 (b : Fin 16) (p : Fin 768) (n : Fin 32) : red3.lift (ix2 b p) n = ix3 b p n := by idx3

variable (x0 : (⟨S16x768x32x9, .f32⟩ : BufTy).Contents (Elt Ideal)) (x1 : (⟨S16x768x32, .i1⟩ : BufTy).Contents (Elt Ideal))
  (x2 : (⟨S128x9, .f32⟩ : BufTy).Contents (Elt Ideal)) (x3 x4 x5 x6 : (⟨S128, .f32⟩ : BufTy).Contents (Elt Ideal))
  (x7 : (⟨S128x256, .f32⟩ : BufTy).Contents (Elt Ideal)) (x8 x9 x10 x11 : (⟨S128, .f32⟩ : BufTy).Contents (Elt Ideal))
  (x12 : (⟨S128x128, .f32⟩ : BufTy).Contents (Elt Ideal)) (x13 x14 x15 x16 : (⟨S128, .f32⟩ : BufTy).Contents (Elt Ideal))
  (x17 : (⟨S128x128, .f32⟩ : BufTy).Contents (Elt Ideal)) (x18 : (⟨S128, .f32⟩ : BufTy).Contents (Elt Ideal))
  (x19 : (⟨S256x128, .f32⟩ : BufTy).Contents (Elt Ideal)) (x20 : (⟨S256, .f32⟩ : BufTy).Contents (Elt Ideal))

/-- Polyline (b, p)'s points. -/
abbrev PX (b : Fin 16) (p : Fin 768) : Fin 32 → Fin 9 → EReal := fun n k => x0 (ix4 b p n k)
/-- Polyline (b, p)'s marks: its bits read as 0 or 1. -/
abbrev PM (b : Fin 16) (p : Fin 768) : Fin 32 → EReal := fun n => Poly.bit (x1 (ix3 b p n))

/-! ## Constants and broadcast vectors at a coordinate -/

theorem call0_v0_at (i : S16x768x32x128.Idx) : val_main_call0_v0 (F := Ideal) i = Poly.zero := rfl
theorem call1_v2_at (i : S16x768x32x128.Idx) : val_main_call1_v2 (F := Ideal) i = Poly.zero := rfl
theorem call2_v0_at (i : S16x768x32x128.Idx) : val_main_call2_v0 (F := Ideal) i = Poly.zero := rfl
theorem call3_v0_at (i : S16x768x32x128.Idx) : val_main_call3_v0 (F := Ideal) i = Poly.zero := rfl
theorem call4_v2_at (i : S16x768x32x128.Idx) : val_main_call4_v2 (F := Ideal) i = Poly.zero := rfl
theorem call5_v0_at (i : S16x768x128.Idx) : val_main_call5_v0 (F := Ideal) i = Poly.zero := rfl
theorem call6_v2_at (i : S16x768x256.Idx) : val_main_call6_v2 (F := Ideal) i = Poly.zero := rfl

/-- The point's bit, broadcast along the channels. -/
theorem call1_v1_at (b : Fin 16) (p : Fin 768) (n : Fin 32) (c : Fin 128) :
    val_main_call1_v1 (F := Ideal) x1 (ix4 b p n c) = x1 (ix3 b p n) := by
  rw [val_main_call1_v1_apply, val_main_v0_apply]
  exact congrArg x1 (by idx3)
theorem call4_v1_at (b : Fin 16) (p : Fin 768) (n : Fin 32) (c : Fin 128) :
    val_main_call4_v1 (F := Ideal) x1 (ix4 b p n c) = x1 (ix3 b p n) := by
  rw [val_main_call4_v1_apply, val_main_v0_apply]
  exact congrArg x1 (by idx3)

/-- The first layer's mean, gain over deviation, and bias at channel c. -/
theorem v3_at (b : Fin 16) (p : Fin 768) (n : Fin 32) (c : Fin 128) :
    val_main_v3 (F := Ideal) x5 (ix4 b p n c) = x5 (ix1 c) := by
  rw [val_main_v3_apply, val_main_v2_apply]
  exact congrArg x5 (by idx1)
theorem v10_at (b : Fin 16) (p : Fin 768) (n : Fin 32) (c : Fin 128) :
    val_main_v10 (F := Ideal) x3 x6 (ix4 b p n c) = x3 (ix1 c) * Ideal.rsqrt (x6 (ix1 c) + Poly.eps) := by
  rw [val_main_v10_apply, val_main_v9_apply,
    show idx_main_v9 (idx_main_v10 (ix4 b p n c)) = ix1 c from by idx1]
  rfl
theorem v13_at (b : Fin 16) (p : Fin 768) (n : Fin 32) (c : Fin 128) :
    val_main_v13 (F := Ideal) x4 (ix4 b p n c) = x4 (ix1 c) := by
  rw [val_main_v13_apply, val_main_v12_apply]
  exact congrArg x4 (by idx1)

/-- The second layer's. -/
theorem v23_at (b : Fin 16) (p : Fin 768) (n : Fin 32) (c : Fin 128) :
    val_main_v23 (F := Ideal) x10 (ix4 b p n c) = x10 (ix1 c) := by
  rw [val_main_v23_apply, val_main_v22_apply]
  exact congrArg x10 (by idx1)
theorem v30_at (b : Fin 16) (p : Fin 768) (n : Fin 32) (c : Fin 128) :
    val_main_v30 (F := Ideal) x8 x11 (ix4 b p n c) = x8 (ix1 c) * Ideal.rsqrt (x11 (ix1 c) + Poly.eps) := by
  rw [val_main_v30_apply, val_main_v29_apply,
    show idx_main_v29 (idx_main_v30 (ix4 b p n c)) = ix1 c from by idx1]
  rfl
theorem v33_at (b : Fin 16) (p : Fin 768) (n : Fin 32) (c : Fin 128) :
    val_main_v33 (F := Ideal) x9 (ix4 b p n c) = x9 (ix1 c) := by
  rw [val_main_v33_apply, val_main_v32_apply]
  exact congrArg x9 (by idx1)

/-- The third layer's. -/
theorem v38_at (b : Fin 16) (p : Fin 768) (n : Fin 32) (c : Fin 128) :
    val_main_v38 (F := Ideal) x15 (ix4 b p n c) = x15 (ix1 c) := by
  rw [val_main_v38_apply, val_main_v37_apply]
  exact congrArg x15 (by idx1)
theorem v45_at (b : Fin 16) (p : Fin 768) (n : Fin 32) (c : Fin 128) :
    val_main_v45 (F := Ideal) x13 x16 (ix4 b p n c) = x13 (ix1 c) * Ideal.rsqrt (x16 (ix1 c) + Poly.eps) := by
  rw [val_main_v45_apply, val_main_v44_apply,
    show idx_main_v44 (idx_main_v45 (ix4 b p n c)) = ix1 c from by idx1]
  rfl
theorem v48_at (b : Fin 16) (p : Fin 768) (n : Fin 32) (c : Fin 128) :
    val_main_v48 (F := Ideal) x14 (ix4 b p n c) = x14 (ix1 c) := by
  rw [val_main_v48_apply, val_main_v47_apply]
  exact congrArg x14 (by idx1)

/-- The two output layers' biases. -/
theorem v56_at (b : Fin 16) (p : Fin 768) (c : Fin 128) : val_main_v56 (F := Ideal) x18 (ix3 b p c) = x18 (ix1 c) := by
  rw [val_main_v56_apply, val_main_v55_apply]
  exact congrArg x18 (by idx1)
theorem v61_at (b : Fin 16) (p : Fin 768) (o : Fin 256) : val_main_v61 (F := Ideal) x20 (ix3 b p o) = x20 (ix1 o) := by
  rw [val_main_v61_apply, val_main_v60_apply]
  exact congrArg x20 (by idx1)

/-! ## The first layer and its pooling -/

/-- The first linear layer: the sum over the point's 9 coordinates. -/
theorem v1_at (b : Fin 16) (p : Fin 768) (n : Fin 32) (c : Fin 128) :
    val_main_v1 (F := Ideal) x0 x2 (ix4 b p n c) = ∑ k : Fin 9, x0 (ix4 b p n k) * x2 (ix2 c k) := by
  rw [val_main_v1_apply]
  refine Finset.sum_congr rfl fun k _ => ?_
  rw [show lidx_main_v1 (ix4 b p n c) k = ix4 b p n k from by idx4, show ridx_main_v1 (ix4 b p n c) k = ix2 c k from by idx2]

/-- Normalised and rectified. -/
theorem v15_at (b : Fin 16) (p : Fin 768) (n : Fin 32) (c : Fin 128) :
    val_main_v15 (F := Ideal) x0 x2 x3 x4 x5 x6 (ix4 b p n c)
      = Poly.norm (x3 (ix1 c)) (x4 (ix1 c)) (x5 (ix1 c)) (x6 (ix1 c)) (∑ k : Fin 9, x0 (ix4 b p n k) * x2 (ix2 c k)) := by
  rw [val_main_v15_apply, val_main_v14_apply, val_main_v11_apply, val_main_v4_apply, v1_at, v3_at, v10_at, v13_at, call0_v0_at]
  rfl

/-- Kept where the point's bit is set: the point's features. -/
theorem v16_eq (b : Fin 16) (p : Fin 768) (n : Fin 32) (c : Fin 128) :
    val_main_v16 (F := Ideal) x0 x1 x2 x3 x4 x5 x6 (ix4 b p n c) = Poly.feat (Poly.Weights.of x2 x3 x4 x5 x6 x7 x8 x9 x10 x11 x12 x13 x14 x15 x16 x17 x18 x19 x20) (PX x0 b p) (PM x1 b p) n c := by
  rw [val_main_v16_apply, call1_v1_at, v15_at, call1_v2_at, Poly.select_eq_mul]
  rfl

/-- The maximum over the polyline's points: the pooled features. -/
theorem v17_eq (b : Fin 16) (p : Fin 768) (c : Fin 128) :
    val_main_v17 (F := Ideal) x0 x1 x2 x3 x4 x5 x6 (ix3 b p c) = Poly.pool (Poly.Weights.of x2 x3 x4 x5 x6 x7 x8 x9 x10 x11 x12 x13 x14 x15 x16 x17 x18 x19 x20) (PX x0 b p) (PM x1 b p) c := by
  unfold val_main_v17
  refine (Host.reduce_eq_fold_single (FloatOps.maximumf (F := Ideal) (φ := .f32)) _ _
    reducesTo_S16x768x32x128_S16x768x128_d2 red4 h_S_ (ix3 b p c)).trans ?_
  show (Finset.univ : Finset (Fin 32)).fold max Poly.ninf
    (fun (n : Fin 32) => val_main_v16 (F := Ideal) x0 x1 x2 x3 x4 x5 x6 (red4.lift (ix3 b p c) n)) = _
  unfold Poly.pool
  refine congrArg (fun f : Fin 32 → EReal => Finset.fold max Poly.ninf f (Finset.univ : Finset (Fin 32))) (funext fun (n : Fin 32) => ?_)
  rw [lift4]
  exact v16_eq x0 x1 x2 x3 x4 x5 x6 x7 x8 x9 x10 x11 x12 x13 x14 x15 x16 x17 x18 x19 x20 b p n c

/-- The pooled features, broadcast back along the points. -/
theorem v19_at (b : Fin 16) (p : Fin 768) (n : Fin 32) (c : Fin 128) :
    val_main_v19 (F := Ideal) x0 x1 x2 x3 x4 x5 x6 (ix4 b p n c) = val_main_v17 (F := Ideal) x0 x1 x2 x3 x4 x5 x6 (ix3 b p c) := by
  rw [val_main_v19_apply, val_main_v18_apply]
  exact congrArg (val_main_v17 (F := Ideal) x0 x1 x2 x3 x4 x5 x6) (by idx3)

/-- The point's features beside the pooled ones. -/
theorem v20_eq (b : Fin 16) (p : Fin 768) (n : Fin 32) (j : Fin 256) :
    val_main_v20 (F := Ideal) x0 x1 x2 x3 x4 x5 x6 (ix4 b p n j) = Poly.cat (Poly.Weights.of x2 x3 x4 x5 x6 x7 x8 x9 x10 x11 x12 x13 x14 x15 x16 x17 x18 x19 x20) (PX x0 b p) (PM x1 b p) n j := by
  unfold val_main_v20 Poly.cat
  by_cases hj : j.val < 128
  · rw [dif_pos hj]
    refine (concatenate_pair_apply_left (t := S16x768x32x256) (s₁ := S16x768x32x128) (s₂ := S16x768x32x128) 3 _ _
      concatenates_S16x768x32x128_S16x768x32x128_S16x768x32x256_d3 (ix4 b p n j) rfl (ix4 b p n (⟨j.val, hj⟩ : Fin 128))
      (fun a => by match a with | ⟨0, _⟩ => rfl | ⟨1, _⟩ => rfl | ⟨2, _⟩ => rfl | ⟨3, _⟩ => rfl)).trans ?_
    exact v16_eq x0 x1 x2 x3 x4 x5 x6 x7 x8 x9 x10 x11 x12 x13 x14 x15 x16 x17 x18 x19 x20 b p n ⟨j.val, hj⟩
  · rw [dif_neg hj]
    have hj' : j.val - 128 < 128 := by have := j.isLt; omega
    refine (concatenate_pair_apply_right (t := S16x768x32x256) (s₁ := S16x768x32x128) (s₂ := S16x768x32x128) 3 _ _
      concatenates_S16x768x32x128_S16x768x32x128_S16x768x32x256_d3 (ix4 b p n j) rfl rfl (ix4 b p n (⟨j.val - 128, hj'⟩ : Fin 128))
      (fun a ha => by
        match a with
        | ⟨0, _⟩ => rfl
        | ⟨1, _⟩ => rfl
        | ⟨2, _⟩ => rfl
        | ⟨3, _⟩ => exact absurd (Fin.ext rfl) ha)
      (by show (j.val - 128) + 128 = j.val; omega)).trans ?_
    rw [v19_at]
    exact v17_eq x0 x1 x2 x3 x4 x5 x6 x7 x8 x9 x10 x11 x12 x13 x14 x15 x16 x17 x18 x19 x20 b p ⟨j.val - 128, hj'⟩

/-! ## The second and third layers and their pooling -/

/-- The second linear layer: the sum over the 256 joined features. -/
theorem v21_at (b : Fin 16) (p : Fin 768) (n : Fin 32) (c : Fin 128) :
    val_main_v21 (F := Ideal) x0 x1 x2 x3 x4 x5 x6 x7 (ix4 b p n c) = ∑ j : Fin 256, Poly.cat (Poly.Weights.of x2 x3 x4 x5 x6 x7 x8 x9 x10 x11 x12 x13 x14 x15 x16 x17 x18 x19 x20) (PX x0 b p) (PM x1 b p) n j * x7 (ix2 c j) := by
  rw [val_main_v21_apply]
  refine Finset.sum_congr rfl fun k _ => ?_
  rw [show lidx_main_v21 (ix4 b p n c) k = ix4 b p n k from by idx4, show ridx_main_v21 (ix4 b p n c) k = ix2 c k from by idx2,
    v20_eq]

/-- Normalised and rectified. -/
theorem v35_eq (b : Fin 16) (p : Fin 768) (n : Fin 32) (c : Fin 128) :
    val_main_v35 (F := Ideal) x0 x1 x2 x3 x4 x5 x6 x7 x8 x9 x10 x11 (ix4 b p n c) = Poly.hid1 (Poly.Weights.of x2 x3 x4 x5 x6 x7 x8 x9 x10 x11 x12 x13 x14 x15 x16 x17 x18 x19 x20) (PX x0 b p) (PM x1 b p) n c := by
  rw [val_main_v35_apply, val_main_v34_apply, val_main_v31_apply, val_main_v24_apply, v21_at, v23_at, v30_at, v33_at, call2_v0_at]
  rfl

/-- The third linear layer: the sum over the 128 hidden features. -/
theorem v36_at (b : Fin 16) (p : Fin 768) (n : Fin 32) (c : Fin 128) :
    val_main_v36 (F := Ideal) x0 x1 x2 x3 x4 x5 x6 x7 x8 x9 x10 x11 x12 (ix4 b p n c) = ∑ j : Fin 128, Poly.hid1 (Poly.Weights.of x2 x3 x4 x5 x6 x7 x8 x9 x10 x11 x12 x13 x14 x15 x16 x17 x18 x19 x20) (PX x0 b p) (PM x1 b p) n j * x12 (ix2 c j) := by
  rw [val_main_v36_apply]
  refine Finset.sum_congr rfl fun k _ => ?_
  rw [show lidx_main_v36 (ix4 b p n c) k = ix4 b p n k from by idx4, show ridx_main_v36 (ix4 b p n c) k = ix2 c k from by idx2,
    v35_eq]

/-- Normalised, rectified, and kept where the point's bit is set. -/
theorem v51_eq (b : Fin 16) (p : Fin 768) (n : Fin 32) (c : Fin 128) :
    val_main_v51 (F := Ideal) x0 x1 x2 x3 x4 x5 x6 x7 x8 x9 x10 x11 x12 x13 x14 x15 x16 (ix4 b p n c) = Poly.hid2 (Poly.Weights.of x2 x3 x4 x5 x6 x7 x8 x9 x10 x11 x12 x13 x14 x15 x16 x17 x18 x19 x20) (PX x0 b p) (PM x1 b p) n c := by
  rw [val_main_v51_apply, call4_v1_at, call4_v2_at, val_main_v50_apply, val_main_v49_apply, val_main_v46_apply, val_main_v39_apply,
    v36_at, v38_at, v45_at, v48_at, call3_v0_at, Poly.select_eq_mul]
  rfl

/-- The maximum over the polyline's points. -/
theorem v52_eq (b : Fin 16) (p : Fin 768) (c : Fin 128) :
    val_main_v52 (F := Ideal) x0 x1 x2 x3 x4 x5 x6 x7 x8 x9 x10 x11 x12 x13 x14 x15 x16 (ix3 b p c) = Poly.pool2 (Poly.Weights.of x2 x3 x4 x5 x6 x7 x8 x9 x10 x11 x12 x13 x14 x15 x16 x17 x18 x19 x20) (PX x0 b p) (PM x1 b p) c := by
  unfold val_main_v52
  refine (Host.reduce_eq_fold_single (FloatOps.maximumf (F := Ideal) (φ := .f32)) _ _
    reducesTo_S16x768x32x128_S16x768x128_d2 red4 h_S_ (ix3 b p c)).trans ?_
  show (Finset.univ : Finset (Fin 32)).fold max Poly.ninf
    (fun (n : Fin 32) => val_main_v51 (F := Ideal) x0 x1 x2 x3 x4 x5 x6 x7 x8 x9 x10 x11 x12 x13 x14 x15 x16 (red4.lift (ix3 b p c) n)) = _
  unfold Poly.pool2
  refine congrArg (fun f : Fin 32 → EReal => Finset.fold max Poly.ninf f (Finset.univ : Finset (Fin 32))) (funext fun (n : Fin 32) => ?_)
  rw [lift4]
  exact v51_eq x0 x1 x2 x3 x4 x5 x6 x7 x8 x9 x10 x11 x12 x13 x14 x15 x16 x17 x18 x19 x20 b p n c

/-! ## The output layers -/

/-- The first output layer: the sum over the 128 pooled features, plus the bias, rectified. -/
theorem v54_at (b : Fin 16) (p : Fin 768) (c : Fin 128) :
    val_main_v54 (F := Ideal) x0 x1 x2 x3 x4 x5 x6 x7 x8 x9 x10 x11 x12 x13 x14 x15 x16 x17 (ix3 b p c) = ∑ j : Fin 128, Poly.pool2 (Poly.Weights.of x2 x3 x4 x5 x6 x7 x8 x9 x10 x11 x12 x13 x14 x15 x16 x17 x18 x19 x20) (PX x0 b p) (PM x1 b p) j * x17 (ix2 c j) := by
  rw [val_main_v54_apply]
  refine Finset.sum_congr rfl fun k _ => ?_
  rw [show lidx_main_v54 (ix3 b p c) k = ix3 b p k from by idx3, show ridx_main_v54 (ix3 b p c) k = ix2 c k from by idx2,
    v52_eq]

theorem v58_eq (b : Fin 16) (p : Fin 768) (c : Fin 128) :
    val_main_v58 (F := Ideal) x0 x1 x2 x3 x4 x5 x6 x7 x8 x9 x10 x11 x12 x13 x14 x15 x16 x17 x18 (ix3 b p c) = Poly.out1 (Poly.Weights.of x2 x3 x4 x5 x6 x7 x8 x9 x10 x11 x12 x13 x14 x15 x16 x17 x18 x19 x20) (PX x0 b p) (PM x1 b p) c := by
  rw [val_main_v58_apply, val_main_v57_apply, v54_at, v56_at, call5_v0_at]
  rfl

/-- The second output layer: the sum over the 128 rectified features. -/
theorem v59_at (b : Fin 16) (p : Fin 768) (o : Fin 256) :
    val_main_v59 (F := Ideal) x0 x1 x2 x3 x4 x5 x6 x7 x8 x9 x10 x11 x12 x13 x14 x15 x16 x17 x18 x19 (ix3 b p o) = ∑ j : Fin 128, Poly.out1 (Poly.Weights.of x2 x3 x4 x5 x6 x7 x8 x9 x10 x11 x12 x13 x14 x15 x16 x17 x18 x19 x20) (PX x0 b p) (PM x1 b p) j * x19 (ix2 o j) := by
  rw [val_main_v59_apply]
  refine Finset.sum_congr rfl fun k _ => ?_
  rw [show lidx_main_v59 (ix3 b p o) k = ix3 b p k from by idx3, show ridx_main_v59 (ix3 b p o) k = ix2 o k from by idx2,
    v58_eq]

/-- The disjunction of the polyline's 32 bits. -/
theorem v53_at (b : Fin 16) (p : Fin 768) :
    val_main_v53 (F := Ideal) x1 (ix2 b p) = (Finset.univ : Finset (Fin 32)).fold IntOp.ori 0#1 (fun n => x1 (ix3 b p n)) := by
  unfold val_main_v53
  refine (Host.reduce_eq_fold_single (IntOp.ori (w := 1)) _ _ reducesTo_S16x768x32_S16x768_d2 red3 h_S_ (ix2 b p)).trans ?_
  show (Finset.univ : Finset (Fin 32)).fold IntOp.ori 0#1 (fun (n : Fin 32) => x1 (red3.lift (ix2 b p) n)) = _
  refine congrArg (fun f : Fin 32 → BitVec 1 => Finset.fold IntOp.ori 0#1 f (Finset.univ : Finset (Fin 32))) (funext fun (n : Fin 32) => ?_)
  rw [lift3]

/-- That disjunction, broadcast along the output channels. -/
theorem call6_v1_at (b : Fin 16) (p : Fin 768) (o : Fin 256) :
    val_main_call6_v1 (F := Ideal) x1 (ix3 b p o) = val_main_v53 (F := Ideal) x1 (ix2 b p) := by
  rw [val_main_call6_v1_apply, val_main_v63_apply]
  exact congrArg (val_main_v53 (F := Ideal) x1) (by idx2)

/-- The polyline's encoding: the second output layer, kept when some bit of the polyline is set. -/
theorem v64_eq (b : Fin 16) (p : Fin 768) (o : Fin 256) :
    val_main_v64 (F := Ideal) x0 x1 x2 x3 x4 x5 x6 x7 x8 x9 x10 x11 x12 x13 x14 x15 x16 x17 x18 x19 x20 (ix3 b p o) = Poly.out (Poly.Weights.of x2 x3 x4 x5 x6 x7 x8 x9 x10 x11 x12 x13 x14 x15 x16 x17 x18 x19 x20) (PX x0 b p) (PM x1 b p) o := by
  rw [val_main_v64_apply, call6_v1_at, v53_at, call6_v2_at, val_main_v62_apply, v59_at, v61_at, Poly.select_fold_ori]
  rfl

/-! ## The whole result array -/

/-- The reference's result is the specification's whole-array function of the two inputs and the weights. -/
theorem val_main_v64_eq_G :
    Cert.ReferenceIdeal.ReadP.val_main_v64 (F := Ideal) x0 x1 x2 x3 x4 x5 x6 x7 x8 x9 x10 x11 x12 x13 x14 x15 x16 x17 x18 x19 x20
      = Cert.Poly.G x0 x1 (Cert.Poly.Weights.of x2 x3 x4 x5 x6 x7 x8 x9 x10 x11 x12 x13 x14 x15 x16 x17 x18 x19 x20) := by
  funext i
  obtain ⟨b, p, o, rfl⟩ : ∃ (b : Fin 16) (p : Fin 768) (o : Fin 256), i = ix3 b p o := ⟨i 0, i 1, i 2, eq_ix3 i⟩
  rw [Cert.Poly.G_apply]
  exact v64_eq x0 x1 x2 x3 x4 x5 x6 x7 x8 x9 x10 x11 x12 x13 x14 x15 x16 x17 x18 x19 x20 b p o

end Cert.ReferenceIdeal.RefValue

end
-- ==== Proof.lean ====
/-
  A polyline encoder on a tiled grid against its plain reference, equal on the extended reals.

  Both programs encode 16 x 768 polylines of 32 points each: a linear layer with normalisation and rectifier per point,
  a maximum over the polyline's points, two more such layers on each point's features beside the pooled ones, a second
  maximum, and two affine output layers; a polyline with no marked point encodes to zero. The kernel takes 64 polylines per
  grid point and multiplies by the marks read as the numbers 0 and 1 where the reference selects by the mask's bits; on the
  extended reals x * 1 = x and x * 0 = 0 for every x, and the maximum of a polyline's 0/1 marks is 1 exactly when the
  disjunction of its bits is set, so the two agree entry by entry whatever the inputs hold: both result arrays are Poly.G
  of the argument arrays (Proof/Poly.lean). The kernel's side is Proof/ArrayValue.lean over Proof/TileBody.lean; the
  reference's side is Proof/RefRead.lean over the reference's run read one operation at a time.

  The three frames are the runs themselves; the idealization rewrote nothing, so the kernel is its own idealization.
-/
import proofs.«162664_j18511309045816_2_alg».proof.Defs
import proofs.«162664_j18511309045816_2_alg».proof.Proof.Gen.Kernel
import proofs.«162664_j18511309045816_2_alg».proof.Proof.Gen.Kernel.Skeleton
import proofs.«162664_j18511309045816_2_alg».proof.Proof.Gen.Kernel.Launch
import proofs.«162664_j18511309045816_2_alg».proof.Proof.Gen.Kernel.Points
import proofs.«162664_j18511309045816_2_alg».proof.Proof.Gen.Kernel.Frame
import proofs.«162664_j18511309045816_2_alg».proof.Proof.Gen.KernelIdeal
import proofs.«162664_j18511309045816_2_alg».proof.Proof.Gen.KernelIdeal.Skeleton
import proofs.«162664_j18511309045816_2_alg».proof.Proof.Gen.KernelIdeal.Launch
import proofs.«162664_j18511309045816_2_alg».proof.Proof.Gen.KernelIdeal.Points
import proofs.«162664_j18511309045816_2_alg».proof.Proof.Gen.KernelIdeal.Frame
import proofs.«162664_j18511309045816_2_alg».proof.Proof.Gen.ReferenceIdeal
import proofs.«162664_j18511309045816_2_alg».proof.Proof.Gen.Pre_finite_inputs
import proofs.«162664_j18511309045816_2_alg».proof.Proof.Gen.KernelIdeal.Value
import proofs.«162664_j18511309045816_2_alg».proof.Proof.RunP
import proofs.«162664_j18511309045816_2_alg».proof.Proof.ReadP
import proofs.«162664_j18511309045816_2_alg».proof.Proof.ArrayValue
import proofs.«162664_j18511309045816_2_alg».proof.Proof.RefRead
import Idealize.ShloMosaic.Adequacy
import Idealize.ShloMosaic.Init

noncomputable section

namespace Cert.Proof

open Idealize.ShloMosaic Idealize.SL.Sem Cert.Kernel

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the result array at the encoder of the arguments. -/
theorem algebraic : Cert.algebraic_KernelIdeal_ReferenceIdeal := by
  intro m ρ m' ρ' _ hagree
  refine ⟨fun c => Cert.KernelIdeal.ArrayValue.GV m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20⟩ := hagree c
  rw [Cert.ReferenceIdeal.ReadP.val_main_v64_eq, Cert.ReferenceIdeal.RefValue.val_main_v64_eq_G,
    h0, h1, h2, h3, h4, h5, h6, h7, h8, h9, h10, h11, h12, h13, h14, h15, h16, h17, h18, h19, h20]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
